-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S3072x10240 : Shape := ⟨2, ![3072, 10240]⟩
abbrev S10240 : Shape := ⟨1, ![10240]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S3072x10240 : S_.BroadcastsInDim S3072x10240 (![] : Fin 0 → Fin S3072x10240.rank)
  reducesTo_S3072x10240_S_d0_1 : S3072x10240.ReducesTo [0, 1] S_
  bcast_S_S10240 : S_.BroadcastsInDim S10240 (![] : Fin 0 → Fin S10240.rank)
  reducesTo_S10240_S_d0 : S10240.ReducesTo [0] S_

variable [Facts]

def fn_part1 {F : FTy → Type} [FloatOps F] (main_arg4 : FVec F S10240 .f32) (main_v13 : IVec S_ 1) (main_v16 : IVec S3072x10240 1) : IVec S_ 1 :=
  let main_c_5 : IVec S_ 1 := constantI S_ 1 1#1
  let main_v17 : IVec S_ 1 := (fun x v => Host.reduce IntOp.andi x v reducesTo_S3072x10240_S_d0_1 h_S_) main_v16 main_c_5
  let main_v18 : IVec S_ 1 := andi main_v13 main_v17
  let main_v19 : FVec F S10240 .f32 := Host.absf main_arg4
  let main_cst_6 : FVec F S_ .f32 := constant S_ .f32 0x7F800000#32
  let main_v20 : FVec F S10240 .f32 := broadcastInDim S10240 ![] bcast_S_S10240 main_cst_6
  let main_v21 : IVec S10240 1 := cmpf .olt main_v19 main_v20
  let main_c_7 : IVec S_ 1 := constantI S_ 1 1#1
  let main_v22 : IVec S_ 1 := (fun x v => Host.reduce IntOp.andi x v reducesTo_S10240_S_d0 h_S_) main_v21 main_c_7
  let main_v23 : IVec S_ 1 := andi main_v18 main_v22
  main_v23

def fn {F : FTy → Type} [FloatOps F] (main_arg0 : FVec F S4096x1024 .f32) (main_arg1 : FVec F S4096x2048 .f32) (main_arg2 : FVec F S4096x2048 .f32) (main_arg3 : FVec F S3072x10240 .f32) (main_arg4 : FVec F S10240 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S3072x10240 .f32 := Host.absf main_arg3
  let main_cst_4 : FVec F S_ .f32 := constant S_ .f32 0x7F800000#32
  let main_v15 : FVec F S3072x10240 .f32 := broadcastInDim S3072x10240 ![] bcast_S_S3072x10240 main_cst_4
  let main_v16 : IVec S3072x10240 1 := cmpf .olt main_v14 main_v15
  fn_part1 (F := F) main_arg4 main_v13 main_v16
-- ==== Kernel.lean ====
abbrev S4096x1024 : Shape := ⟨2, ![4096, 1024]⟩
abbrev S4096x2048 : Shape := ⟨2, ![4096, 2048]⟩
abbrev S3072x10240 : Shape := ⟨2, ![3072, 10240]⟩
abbrev S10240 : Shape := ⟨1, ![10240]⟩
abbrev S1x10240 : Shape := ⟨2, ![1, 10240]⟩
abbrev S256x1024 : Shape := ⟨2, ![256, 1024]⟩
abbrev S256x2048 : Shape := ⟨2, ![256, 2048]⟩
abbrev S3072x512 : Shape := ⟨2, ![3072, 512]⟩
abbrev S1x512 : Shape := ⟨2, ![1, 512]⟩
abbrev S256x512 : Shape := ⟨2, ![256, 512]⟩
abbrev S1024x512 : Shape := ⟨2, ![1024, 512]⟩
abbrev S2048x512 : Shape := ⟨2, ![2048, 512]⟩

abbrev nBuf : Space → Nat
  | .hbm => 11
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S3072x10240, .f32⟩
  | .hbm, ⟨4, _⟩ => ⟨S10240, .f32⟩
  | .hbm, ⟨5, _⟩ => ⟨S4096x1024, .bf16⟩
  | .hbm, ⟨6, _⟩ => ⟨S4096x2048, .bf16⟩
  | .hbm, ⟨7, _⟩ => ⟨S3072x10240, .bf16⟩
  | .hbm, ⟨8, _⟩ => ⟨S1x10240, .f32⟩
  | .hbm, ⟨9, _⟩ => ⟨S4096x2048, .f32⟩
  | .hbm, ⟨10, _⟩ => ⟨S4096x2048, .f32⟩
  | .local _ .vmem, ⟨0, _⟩ => ⟨S256x1024, .bf16⟩
  | .local _ .vmem, ⟨1, _⟩ => ⟨S256x1024, .bf16⟩
  | .local _ .vmem, ⟨2, _⟩ => ⟨S256x2048, .bf16⟩
  | .local _ .vmem, ⟨3, _⟩ => ⟨S256x2048, .bf16⟩
  | .local _ .vmem, ⟨4, _⟩ => ⟨S3072x512, .bf16⟩
  | .local _ .vmem, ⟨5, _⟩ => ⟨S3072x512, .bf16⟩
  | .local _ .vmem, ⟨6, _⟩ => ⟨S3072x512, .bf16⟩
  | .local _ .vmem, ⟨7, _⟩ => ⟨S3072x512, .bf16⟩
  | .local _ .vmem, ⟨8, _⟩ => ⟨S3072x512, .bf16⟩
  | .local _ .vmem, ⟨9, _⟩ => ⟨S3072x512, .bf16⟩
  | .local _ .vmem, ⟨10, _⟩ => ⟨S3072x512, .bf16⟩
  | .local _ .vmem, ⟨11, _⟩ => ⟨S3072x512, .bf16⟩
  | .local _ .vmem, ⟨12, _⟩ => ⟨S3072x512, .bf16⟩
  | .local _ .vmem, ⟨13, _⟩ => ⟨S3072x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3072x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3072x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3072x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3072x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3072x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

class Facts₀ : Prop where
  bitsLt_bf16_f32 : FTy.bits .bf16 < FTy.bits .f32
  shapeCasts_S10240_S1x10240 : S10240.ShapeCasts S1x10240
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S3072x512_S3072x512_0_0 : ∀ a, (![0, 0] : Fin 2 → Nat) a + S3072x512.size a ≤ S3072x512.size a
  h_S3072x512 : 0 < S3072x512.numel
  shapeCasts_S3072x512_S3072x512 : S3072x512.ShapeCasts S3072x512
  slices_S3072x512_o0_0_S1024x512 : S3072x512.Slices ![0, 0] S1024x512
  slices_S3072x512_o1024_0_S2048x512 : S3072x512.Slices ![1024, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  dot_S256x1024_S1024x512_S256x512_1_0_0_1_n_n_wf : DotDims.WF S256x1024 S1024x512 S256x512 [1] [0] [0] [1] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .bf16 = 32 ∨ (Rect.block (s := S4096x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3072x512.size a ≤ S3072x10240.size a
  hwx0_2 : ∀ i : grid0.Coords, EltTy.bits .bf16 = 32 ∨ (Rect.block (s := S3072x10240) S3072x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3072x512.size a ≤ S3072x10240.size a
  hwx0_3 : ∀ i : grid0.Coords, EltTy.bits .bf16 = 32 ∨ (Rect.block (s := S3072x10240) S3072x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3072x512.size a ≤ S3072x10240.size a
  hwx0_4 : ∀ i : grid0.Coords, EltTy.bits .bf16 = 32 ∨ (Rect.block (s := S3072x10240) S3072x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3072x512.size a ≤ S3072x10240.size a
  hwx0_5 : ∀ i : grid0.Coords, EltTy.bits .bf16 = 32 ∨ (Rect.block (s := S3072x10240) S3072x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3072x512.size a ≤ S3072x10240.size a
  hwx0_6 : ∀ i : grid0.Coords, EltTy.bits .bf16 = 32 ∨ (Rect.block (s := S3072x10240) S3072x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x10240.size a
  hwx0_7 : ∀ i : grid0.Coords, EltTy.bits .f32 = 32 ∨ (Rect.block (s := S1x10240) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x10240.size a
  hwx0_8 : ∀ i : grid0.Coords, EltTy.bits .f32 = 32 ∨ (Rect.block (s := S1x10240) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x10240.size a
  hwx0_9 : ∀ i : grid0.Coords, EltTy.bits .f32 = 32 ∨ (Rect.block (s := S1x10240) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x10240.size a
  hwx0_10 : ∀ i : grid0.Coords, EltTy.bits .f32 = 32 ∨ (Rect.block (s := S1x10240) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x10240.size a
  hwx0_11 : ∀ i : grid0.Coords, EltTy.bits .f32 = 32 ∨ (Rect.block (s := S1x10240) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x512.size a ≤ S4096x2048.size a
  hwx0_12 : ∀ i : grid0.Coords, EltTy.bits .f32 = 32 ∨ (Rect.block (s := S4096x2048) S256x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x512.size a ≤ S4096x2048.size a
  hwx0_13 : ∀ i : grid0.Coords, EltTy.bits .f32 = 32 ∨ (Rect.block (s := S4096x2048) S256x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x512.size a ≤ S4096x2048.size a
  hwx0_14 : ∀ i : grid0.Coords, EltTy.bits .f32 = 32 ∨ (Rect.block (s := S4096x2048) S256x512.size (cc0_transform_14 i) (hinb0_14 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S3072x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3072x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S3072x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S3072x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S3072x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg2) S256x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_0) S256x512.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4_1) S256x512.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S3072x10240 : Shape := ⟨2, ![3072, 10240]⟩
abbrev S10240 : Shape := ⟨1, ![10240]⟩
abbrev S4096x3072 : Shape := ⟨2, ![4096, 3072]⟩
abbrev S4096x10240 : Shape := ⟨2, ![4096, 10240]⟩
abbrev S1x10240 : Shape := ⟨2, ![1, 10240]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S3072x10240, .f32⟩
  | .hbm, ⟨4, _⟩ => ⟨S10240, .f32⟩
  | .hbm, ⟨5, _⟩ => ⟨S4096x3072, .f32⟩
  | .hbm, ⟨6, _⟩ => ⟨S4096x10240, .f32⟩
  | .hbm, ⟨7, _⟩ => ⟨S1x10240, .f32⟩
  | .hbm, ⟨8, _⟩ => ⟨S4096x10240, .f32⟩
  | .hbm, ⟨9, _⟩ => ⟨S4096x10240, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]

class Facts₀ : Prop where
  concatenates_S4096x1024_S4096x2048_S4096x3072_d1 : Shape.Concatenates [S4096x1024, S4096x2048] S4096x3072 1
  bcast_S10240_S1x10240_1 : S10240.BroadcastsInDim S1x10240 (![1] : Fin 1 → Fin S1x10240.rank)
  bcast_S1x10240_S4096x10240_0_1 : S1x10240.BroadcastsInDim S4096x10240 (![0, 1] : Fin 2 → Fin S4096x10240.rank)
  slices_S4096x10240_S4096x2048_0_0 : S4096x10240.Slices ![0, 0] S4096x2048
  slices_S4096x10240_S4096x2048_0_2048 : S4096x10240.Slices ![0, 2048] S4096x2048
  slices_S4096x10240_S4096x2048_0_4096 : S4096x10240.Slices ![0, 4096] S4096x2048
  slices_S4096x10240_S4096x2048_0_6144 : S4096x10240.Slices ![0, 6144] S4096x2048
  slices_S4096x10240_S4096x2048_0_8192 : S4096x10240.Slices ![0, 8192] S4096x2048
  bcast_S_S4096x2048 : S_.BroadcastsInDim S4096x2048 (![] : Fin 0 → Fin S4096x2048.rank)
  dot_S4096x3072_S3072x10240_S4096x10240_1_0_0_1_n_n_wf : DotDims.WF S4096x3072 S3072x10240 S4096x10240 [1] [0] [0] [1] [] []

variable [Facts₀]

def dot_S4096x3072_S3072x10240_S4096x10240_1_0_0_1_n_n : DotDims S4096x3072 S3072x10240 S4096x10240 where
  lhsContracting := [1]
  rhsContracting := [0]
  lhsNonContracting := [0]
  rhsNonContracting := [1]
  lhsBatch := []
  rhsBatch := []
  wf := dot_S4096x3072_S3072x10240_S4096x10240_1_0_0_1_n_n_wf

class Facts : Prop extends Facts₀ where

variable [Facts]
-- ==== Proof.BitsRegion.lean ====
/-
  The region's entry for the cell kernel: what the TensorCore's buffers hold when the one pallas_call is entered
  (the launch memory after the four host operations — three changes of float format and the reshape of the bias),
  that @main is those operations followed by the region, that none of them writes an argument array, each window's
  block at a grid point as a function of the entry contents, and that an input window's current staging buffer
  holds its block at every point, whether the pipeline fetched it there or kept it from an earlier point.
-/
import proofs.«153560_j61091614819044_2_alg».proof.Proof.Gen.Kernel.Launch
import proofs.«153560_j61091614819044_2_alg».proof.Proof.Gen.Kernel.Skeleton
import proofs.«153560_j61091614819044_2_alg».proof.Proof.Gen.Kernel.Points
import Idealize.ShloMosaic.Lib.Pipeline.FrameBody
import Idealize.ShloMosaic.Lib.Pipeline.Frame

set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

variable (m : (ℓ : Loc nD τ sig) → Buf (Elt F) ℓ)

/-- Core `c`'s buffers when the region is entered: the launch memory after the host operations. -/
abbrev entry (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region, which finds the buffers at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer none of the four host operations writes is found as launched. -/
theorem entry_of_unwritten (c : Dev nD) (b : Ref sig .tc)
    (h0 : b ≠ main_v0) (h1 : b ≠ main_v1) (h2 : b ≠ main_v2) (h3 : b ≠ main_v3) :
    entry m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem entry_arg0 (c : Dev nD) : entry m c main_arg0 = m ((c : Thread nD τ).loc main_arg0) :=
  entry_of_unwritten m c _ (by decide) (by decide) (by decide) (by decide)
theorem entry_arg1 (c : Dev nD) : entry m c main_arg1 = m ((c : Thread nD τ).loc main_arg1) :=
  entry_of_unwritten m c _ (by decide) (by decide) (by decide) (by decide)
theorem entry_arg2 (c : Dev nD) : entry m c main_arg2 = m ((c : Thread nD τ).loc main_arg2) :=
  entry_of_unwritten m c _ (by decide) (by decide) (by decide) (by decide)
theorem entry_arg3 (c : Dev nD) : entry m c main_arg3 = m ((c : Thread nD τ).loc main_arg3) :=
  entry_of_unwritten m c _ (by decide) (by decide) (by decide) (by decide)
theorem entry_arg4 (c : Dev nD) : entry m c main_arg4 = m ((c : Thread nD τ).loc main_arg4) :=
  entry_of_unwritten m c _ (by decide) (by decide) (by decide) (by decide)

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## What the body finds in an input window

An input window is never cut and never idle, and the body leaves its block in place; so at a point that does not
fetch it (its block index has not moved since the last fetch) the buffer still holds the block. -/

theorem found_in0 {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem found_in1 {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem found_in2 {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem found_in3 {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
theorem found_in4 {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)
theorem found_in5 {c : Dev nD} (dat : Dat τ (Elt F) Unit ℕ (UR sig nD τ) ℕ cfg0 c)
    (hA : dat.A 5 = entry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)
theorem found_in6 {c : Dev nD} (dat : Dat τ (Elt F) Unit ℕ (UR sig nD τ) ℕ cfg0 c)
    (hA : dat.A 6 = entry m c (Pipeline.arrRef spec0 6)) (hafter : ∀ t, dat.after 6 t = blockAt m c 6 t)
    (t : Fin cfg0.N) (d) : dat.before 6 t d = blockAt m c 6 t :=
  (dat.before_in_eq_fetched 6 rfl (fun _ => rfl) (fun _ _ _ => rfl)
    (fun t => by rw [hafter]; unfold Dat.blockOf blockAt; rw [hA]; try rfl) t d).trans
    (by unfold Dat.fetched Dat.blockOf blockAt; rw [hA]; try rfl)
theorem found_in7 {c : Dev nD} (dat : Dat τ (Elt F) Unit ℕ (UR sig nD τ) ℕ cfg0 c)
    (hA : dat.A 7 = entry m c (Pipeline.arrRef spec0 7)) (hafter : ∀ t, dat.after 7 t = blockAt m c 7 t)
    (t : Fin cfg0.N) (d) : dat.before 7 t d = blockAt m c 7 t :=
  (dat.before_in_eq_fetched 7 rfl (fun _ => rfl) (fun _ _ _ => rfl)
    (fun t => by rw [hafter]; unfold Dat.blockOf blockAt; rw [hA]; try rfl) t d).trans
    (by unfold Dat.fetched Dat.blockOf blockAt; rw [hA]; try rfl)
theorem found_in8 {c : Dev nD} (dat : Dat τ (Elt F) Unit ℕ (UR sig nD τ) ℕ cfg0 c)
    (hA : dat.A 8 = entry m c (Pipeline.arrRef spec0 8)) (hafter : ∀ t, dat.after 8 t = blockAt m c 8 t)
    (t : Fin cfg0.N) (d) : dat.before 8 t d = blockAt m c 8 t :=
  (dat.before_in_eq_fetched 8 rfl (fun _ => rfl) (fun _ _ _ => rfl)
    (fun t => by rw [hafter]; unfold Dat.blockOf blockAt; rw [hA]; try rfl) t d).trans
    (by unfold Dat.fetched Dat.blockOf blockAt; rw [hA]; try rfl)
theorem found_in9 {c : Dev nD} (dat : Dat τ (Elt F) Unit ℕ (UR sig nD τ) ℕ cfg0 c)
    (hA : dat.A 9 = entry m c (Pipeline.arrRef spec0 9)) (hafter : ∀ t, dat.after 9 t = blockAt m c 9 t)
    (t : Fin cfg0.N) (d) : dat.before 9 t d = blockAt m c 9 t :=
  (dat.before_in_eq_fetched 9 rfl (fun _ => rfl) (fun _ _ _ => rfl)
    (fun t => by rw [hafter]; unfold Dat.blockOf blockAt; rw [hA]; try rfl) t d).trans
    (by unfold Dat.fetched Dat.blockOf blockAt; rw [hA]; try rfl)
theorem found_in10 {c : Dev nD} (dat : Dat τ (Elt F) Unit ℕ (UR sig nD τ) ℕ cfg0 c)
    (hA : dat.A 10 = entry m c (Pipeline.arrRef spec0 10)) (hafter : ∀ t, dat.after 10 t = blockAt m c 10 t)
    (t : Fin cfg0.N) (d) : dat.before 10 t d = blockAt m c 10 t :=
  (dat.before_in_eq_fetched 10 rfl (fun _ => rfl) (fun _ _ _ => rfl)
    (fun t => by rw [hafter]; unfold Dat.blockOf blockAt; rw [hA]; try rfl) t d).trans
    (by unfold Dat.fetched Dat.blockOf blockAt; rw [hA]; try rfl)
theorem found_in11 {c : Dev nD} (dat : Dat τ (Elt F) Unit ℕ (UR sig nD τ) ℕ cfg0 c)
    (hA : dat.A 11 = entry m c (Pipeline.arrRef spec0 11)) (hafter : ∀ t, dat.after 11 t = blockAt m c 11 t)
    (t : Fin cfg0.N) (d) : dat.before 11 t d = blockAt m c 11 t :=
  (dat.before_in_eq_fetched 11 rfl (fun _ => rfl) (fun _ _ _ => rfl)
    (fun t => by rw [hafter]; unfold Dat.blockOf blockAt; rw [hA]; try rfl) t d).trans
    (by unfold Dat.fetched Dat.blockOf blockAt; rw [hA]; try rfl)
theorem found_in12 {c : Dev nD} (dat : Dat τ (Elt F) Unit ℕ (UR sig nD τ) ℕ cfg0 c)
    (hA : dat.A 12 = entry m c (Pipeline.arrRef spec0 12)) (hafter : ∀ t, dat.after 12 t = blockAt m c 12 t)
    (t : Fin cfg0.N) (d) : dat.before 12 t d = blockAt m c 12 t :=
  (dat.before_in_eq_fetched 12 rfl (fun _ => rfl) (fun _ _ _ => rfl)
    (fun t => by rw [hafter]; unfold Dat.blockOf blockAt; rw [hA]; try rfl) t d).trans
    (by unfold Dat.fetched Dat.blockOf blockAt; rw [hA]; try rfl)

end Cert.Kernel.Region

end
-- ==== Proof.BitsBody.lean ====
/-
  The kernel body as a function of what its windows hold. The body loads each of its thirteen input blocks whole
  (the batch tile of x and of h, five weight blocks, five bias rows, the tile of c_prev), forms the five gate
  pre-activations  z_g = x · W_g[:1024] + h · W_g[1024:] + b_g,  and stores whole the new cell state
  c = σ(z_f) · c_prev + σ(z_i) · tanh(z_c)  and the new hidden state  h' = σ(z_e) · exp(u) + (1 − σ(z_e)) · u  with
  u = σ(z_o) · tanh(c). Here the two stored blocks are named as functions of the thirteen loaded blocks, over the
  generated payload terms, and the body is run once on symbolic staging buffers.
-/
import proofs.«153560_j61091614819044_2_alg».proof.Proof.Gen.Kernel.Launch
import proofs.«153560_j61091614819044_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The whole-buffer rectangles the body reads and writes through -/

abbrev rX : Rect S256x1024 := Rect.unit (s := S256x1024) ![0, 0] S256x1024.size inb_S256x1024_S256x1024_0_0
abbrev rH : Rect S256x2048 := Rect.unit (s := S256x2048) ![0, 0] S256x2048.size inb_S256x2048_S256x2048_0_0
abbrev rW : Rect S3072x512 := Rect.unit (s := S3072x512) ![0, 0] S3072x512.size inb_S3072x512_S3072x512_0_0
abbrev rB : Rect S1x512 := Rect.unit (s := S1x512) ![0, 0] S1x512.size inb_S1x512_S1x512_0_0
abbrev rO : Rect S256x512 := Rect.unit (s := S256x512) ![0, 0] S256x512.size inb_S256x512_S256x512_0_0

/-! ## The stored values -/

/-- The forget gate's pre-activation, of the loaded blocks. -/
def preF (x : Vec F S256x1024 .bf16) (h : Vec F S256x2048 .bf16) (wf : Vec F S3072x512 .bf16) (bf : Vec F S1x512 .f32) : FVec F S256x512 .f32 :=
  k0_pay3 (View.ld x rX) (View.ld h rH) (View.ld wf rW) (View.ld bf rB)
/-- The input gate's. -/
def preI (x : Vec F S256x1024 .bf16) (h : Vec F S256x2048 .bf16) (wi : Vec F S3072x512 .bf16) (bi : Vec F S1x512 .f32) : FVec F S256x512 .f32 :=
  k0_pay4 (View.ld x rX) (View.ld h rH) (View.ld wi rW) (View.ld bi rB)
/-- The candidate's two matrix products, before its bias, -/
def preC (x : Vec F S256x1024 .bf16) (h : Vec F S256x2048 .bf16) (wc : Vec F S3072x512 .bf16) : FVec F S256x512 .f32 :=
  k0_pay5 (View.ld x rX) (View.ld h rH) (View.ld wc rW)
/-- and its bias row on every row of the tile. -/
def biasC (bc : Vec F S1x512 .f32) : FVec F S256x512 .f32 := k0_pay6 (View.ld bc rB)

/-- The new cell state's tile. -/
def cellTile (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) : FVec F S256x512 .f32 :=
  k0_pay7 (preF x h wf bf) (preI x h wi bi) (preC x h wc) (biasC bc) (View.ld cp rO)
/-- The new hidden state's tile. -/
def hiddenTile (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) : FVec F S256x512 .f32 :=
  k0_pay8 (k0_pay1 (View.ld x rX)) (k0_pay2 (View.ld h rH)) (preF x h wf bf) (preI x h wi bi) (preC x h wc) (biasC bc)
    (View.ld wo rW) (View.ld bo rB) (View.ld we rW) (View.ld be rB) (View.ld cp rO)

/-- What the hidden state's staging buffer holds after the body: its one store, of the whole tile. -/
def hiddenBuf (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) : Vec F S256x512 .f32 :=
  View.canon [⟨rO, hiddenTile x h wf wi wc wo we bf bi bc bo be cp⟩]
/-- What the cell state's staging buffer holds after the body. -/
def cellBuf (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) : Vec F S256x512 .f32 :=
  View.canon [⟨rO, cellTile x h wf wi wc wo we bf bi bc bo be cp⟩]

/-- One store of the whole tile covers the buffer. -/
theorem whole_store_covers (p : Vec F S256x512 .f32) (y : S256x512.Idx) :
    ∃ pc ∈ ([⟨rO, p⟩] : List (View.Piece (Elt F) S256x512 .f32)), y ∈ pc.1.set :=
  View.cover_of_tiled [⟨rO, p⟩] S256x512.size (by rfl) y

/-! ## The body's triple -/

set_option maxHeartbeats 4000000 in
/-- On whole staging buffers, the inputs' holding `x … cp` and the outputs' anything, the body runs to a state with
    the inputs' as they were and the outputs' at `hiddenBuf` and `cellBuf` of the inputs'. -/
theorem body_runs (c : Dev nD) (E : Set ℕ) (i : grid0.Coords) (a2 : Memref sig .tc .vmem S256x1024 .bf16) (w2 : a2.IsWhole) (a3 : Memref sig .tc .vmem S256x2048 .bf16) (w3 : a3.IsWhole) (a4 : Memref sig .tc .vmem S3072x512 .bf16) (w4 : a4.IsWhole) (a5 : Memref sig .tc .vmem S3072x512 .bf16) (w5 : a5.IsWhole) (a6 : Memref sig .tc .vmem S3072x512 .bf16) (w6 : a6.IsWhole) (a7 : Memref sig .tc .vmem S3072x512 .bf16) (w7 : a7.IsWhole) (a8 : Memref sig .tc .vmem S3072x512 .bf16) (w8 : a8.IsWhole) (a9 : Memref sig .tc .vmem S1x512 .f32) (w9 : a9.IsWhole) (a10 : Memref sig .tc .vmem S1x512 .f32) (w10 : a10.IsWhole) (a11 : Memref sig .tc .vmem S1x512 .f32) (w11 : a11.IsWhole) (a12 : Memref sig .tc .vmem S1x512 .f32) (w12 : a12.IsWhole) (a13 : Memref sig .tc .vmem S1x512 .f32) (w13 : a13.IsWhole) (a14 : Memref sig .tc .vmem S256x512 .f32) (w14 : a14.IsWhole) (a15 : Memref sig .tc .vmem S256x512 .f32) (w15 : a15.IsWhole) (a16 : Memref sig .tc .vmem S256x512 .f32) (w16 : a16.IsWhole)
    (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) (K : PUnit → sProp 𝕄) :
    iprop(owns (c : Thread nD τ) a2 fullShare x ∗ owns (c : Thread nD τ) a3 fullShare h ∗ owns (c : Thread nD τ) a4 fullShare wf ∗ owns (c : Thread nD τ) a5 fullShare wi ∗ owns (c : Thread nD τ) a6 fullShare wc ∗ owns (c : Thread nD τ) a7 fullShare wo ∗ owns (c : Thread nD τ) a8 fullShare we ∗ owns (c : Thread nD τ) a9 fullShare bf ∗ owns (c : Thread nD τ) a10 fullShare bi ∗ owns (c : Thread nD τ) a11 fullShare bc ∗ owns (c : Thread nD τ) a12 fullShare bo ∗ owns (c : Thread nD τ) a13 fullShare be ∗ owns (c : Thread nD τ) a14 fullShare cp
        ∗ (∃ d, owns (c : Thread nD τ) a15 fullShare d) ∗ (∃ d, owns (c : Thread nD τ) a16 fullShare d)
        ∗ (iprop(owns (c : Thread nD τ) a2 fullShare x ∗ owns (c : Thread nD τ) a3 fullShare h ∗ owns (c : Thread nD τ) a4 fullShare wf ∗ owns (c : Thread nD τ) a5 fullShare wi ∗ owns (c : Thread nD τ) a6 fullShare wc ∗ owns (c : Thread nD τ) a7 fullShare wo ∗ owns (c : Thread nD τ) a8 fullShare we ∗ owns (c : Thread nD τ) a9 fullShare bf ∗ owns (c : Thread nD τ) a10 fullShare bi ∗ owns (c : Thread nD τ) a11 fullShare bc ∗ owns (c : Thread nD τ) a12 fullShare bo ∗ owns (c : Thread nD τ) a13 fullShare be ∗ owns (c : Thread nD τ) a14 fullShare cp
            ∗ owns (c : Thread nD τ) a15 fullShare (hiddenBuf x h wf wi wc wo we bf bi bc bo be cp)
            ∗ owns (c : Thread nD τ) a16 fullShare (cellBuf x h wf wi wc wo we bf bi bc bo be cp)) -∗ K ⟨⟩))
      ⊢ wp frame (wpE (defs₀ (F := F)) Variants.none c none) E (cc0__xlstm_kernel i a2 w2 a3 w3 a4 w4 a5 w5 a6 w6 a7 w7 a8 w8 a9 w9 a10 w10 a11 w11 a12 w12 a13 w13 a14 w14 a15 w15 a16 w16) K := by
  simp only [cc0__xlstm_kernel_eq_skeleton]; unfold cc0__xlstm_kernel_skel
  simp only [k0_part1_eq_skeleton, k0_part2_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, Hk⟩
  subst e2 e3 e4 e5 e6 e7 e8 e9 e10 e11 e12 e13 e14
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (whole_store_covers _)
  iexists _; isplitr
  swap; · iexact H16
  ipureintro
  exact View.read_writes_eq_canon _ _ _ (whole_store_covers _)

end Cert.Kernel.Region

end
-- ==== Proof.BitsData.lean ====
/-
  The pipeline's proof data for the cell kernel, and the body's obligation at every grid point.
  After the body at point `t` every input window's buffer still holds its block, the hidden state's buffer holds
  `hiddenBuf` and the cell state's `cellBuf` of the thirteen input blocks at `t`. The weight matrix is handed to the
  kernel through five windows and the bias row through five: each of those arrays is held in five shares, one per
  window reading it (left, right-left, right-right-left, …), the other inputs and the two outputs whole. The body
  keeps nothing of its own between points, so the invariant is just the core's scoped buffers that are no staging buffer.
-/
import proofs.«153560_j61091614819044_2_alg».proof.Proof.BitsRegion
import proofs.«153560_j61091614819044_2_alg».proof.Proof.BitsBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The proof data of the one pipeline on core `c`. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => hiddenBuf (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t)
    | ⟨14, _⟩ => cellBuf (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right.left
    | ⟨4, _⟩ => fullShare.right.right.left
    | ⟨5, _⟩ => fullShare.right.right.right.left
    | ⟨6, _⟩ => fullShare.right.right.right.right
    | ⟨7, _⟩ => fullShare.left
    | ⟨8, _⟩ => fullShare.right.left
    | ⟨9, _⟩ => fullShare.right.right.left
    | ⟨10, _⟩ => fullShare.right.right.right.left
    | ⟨11, _⟩ => fullShare.right.right.right.right
    | ⟨12, _⟩ => fullShare
    | ⟨13, _⟩ => fullShare
    | ⟨14, _⟩ => fullShare
  owed _ := 0

theorem dats_A (c : Dev nD) (w : Fin cfg0.W) : (dats m 0 c).A w = entry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
theorem after_in7 (c : Dev nD) (t : Fin cfg0.N) : (dats m 0 c).after 7 t = blockAt m c 7 t := by dsimp only [dats]
theorem after_in8 (c : Dev nD) (t : Fin cfg0.N) : (dats m 0 c).after 8 t = blockAt m c 8 t := by dsimp only [dats]
theorem after_in9 (c : Dev nD) (t : Fin cfg0.N) : (dats m 0 c).after 9 t = blockAt m c 9 t := by dsimp only [dats]
theorem after_in10 (c : Dev nD) (t : Fin cfg0.N) : (dats m 0 c).after 10 t = blockAt m c 10 t := by dsimp only [dats]
theorem after_in11 (c : Dev nD) (t : Fin cfg0.N) : (dats m 0 c).after 11 t = blockAt m c 11 t := by dsimp only [dats]
theorem after_in12 (c : Dev nD) (t : Fin cfg0.N) : (dats m 0 c).after 12 t = blockAt m c 12 t := by dsimp only [dats]
theorem after_hidden (c : Dev nD) (t : Fin cfg0.N) : (dats m 0 c).after 13 t = hiddenBuf (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) := by dsimp only [dats]
theorem after_cell (c : Dev nD) (t : Fin cfg0.N) : (dats m 0 c).after 14 t = cellBuf (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) := by dsimp only [dats]

theorem before_in0 (c : Dev nD) (t : Fin cfg0.N) (d) : (dats m 0 c).before 0 t d = blockAt m c 0 t :=
  found_in0 m (dats m 0 c) (dats_A m c 0) (after_in0 m c) t d
theorem before_in1 (c : Dev nD) (t : Fin cfg0.N) (d) : (dats m 0 c).before 1 t d = blockAt m c 1 t :=
  found_in1 m (dats m 0 c) (dats_A m c 1) (after_in1 m c) t d
theorem before_in2 (c : Dev nD) (t : Fin cfg0.N) (d) : (dats m 0 c).before 2 t d = blockAt m c 2 t :=
  found_in2 m (dats m 0 c) (dats_A m c 2) (after_in2 m c) t d
theorem before_in3 (c : Dev nD) (t : Fin cfg0.N) (d) : (dats m 0 c).before 3 t d = blockAt m c 3 t :=
  found_in3 m (dats m 0 c) (dats_A m c 3) (after_in3 m c) t d
theorem before_in4 (c : Dev nD) (t : Fin cfg0.N) (d) : (dats m 0 c).before 4 t d = blockAt m c 4 t :=
  found_in4 m (dats m 0 c) (dats_A m c 4) (after_in4 m c) t d
theorem before_in5 (c : Dev nD) (t : Fin cfg0.N) (d) : (dats m 0 c).before 5 t d = blockAt m c 5 t :=
  found_in5 m (dats m 0 c) (dats_A m c 5) (after_in5 m c) t d
theorem before_in6 (c : Dev nD) (t : Fin cfg0.N) (d) : (dats m 0 c).before 6 t d = blockAt m c 6 t :=
  found_in6 m (dats m 0 c) (dats_A m c 6) (after_in6 m c) t d
theorem before_in7 (c : Dev nD) (t : Fin cfg0.N) (d) : (dats m 0 c).before 7 t d = blockAt m c 7 t :=
  found_in7 m (dats m 0 c) (dats_A m c 7) (after_in7 m c) t d
theorem before_in8 (c : Dev nD) (t : Fin cfg0.N) (d) : (dats m 0 c).before 8 t d = blockAt m c 8 t :=
  found_in8 m (dats m 0 c) (dats_A m c 8) (after_in8 m c) t d
theorem before_in9 (c : Dev nD) (t : Fin cfg0.N) (d) : (dats m 0 c).before 9 t d = blockAt m c 9 t :=
  found_in9 m (dats m 0 c) (dats_A m c 9) (after_in9 m c) t d
theorem before_in10 (c : Dev nD) (t : Fin cfg0.N) (d) : (dats m 0 c).before 10 t d = blockAt m c 10 t :=
  found_in10 m (dats m 0 c) (dats_A m c 10) (after_in10 m c) t d
theorem before_in11 (c : Dev nD) (t : Fin cfg0.N) (d) : (dats m 0 c).before 11 t d = blockAt m c 11 t :=
  found_in11 m (dats m 0 c) (dats_A m c 11) (after_in11 m c) t d
theorem before_in12 (c : Dev nD) (t : Fin cfg0.N) (d) : (dats m 0 c).before 12 t d = blockAt m c 12 t :=
  found_in12 m (dats m 0 c) (dats_A m c 12) (after_in12 m c) t d

/-! ## The body obligation at a symbolic point -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- At any point the inputs' buffers hold their blocks, so the body's triple applies; the invariant and what the
    core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_in0, before_in1, before_in2, before_in3, before_in4, before_in5, before_in6, before_in7, before_in8, before_in9, before_in10, before_in11, before_in12]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9, after_in10, after_in11, after_in12, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_runs c Set.univ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) :
    BodyObligation (dats (F := F) m 0 c) (defs₀ (F := F)) Variants.none () Set.univ := fun t => by
  rw [bigSep_W0, bigSep_W0]
  exact body_at m c t

end Cert.Kernel.Region

end
-- ==== Proof.BitsLaunch.lean ====
/-
  The launch of the cell kernel's one region, and the frame.
  The seven distinct buffers behind the fifteen windows are each held whole when the region is entered. The weight
  matrix's buffer is dealt to the five windows that read it, and the bias row's likewise, by halving the full share
  four times: left, right-left, right-right-left, right-right-right-left, and what is left (right four times). With that
  the library's launch for input windows sharing an array applies: every weakly fair execution terminates, every
  window's array ends at what the library computes from the proof data, and every other unscoped buffer as the
  region found it. An argument array is either a bypassing buffer no host operation wrote (x, h_prev, W, b) or an
  input window's array (c_prev), so all five end as launched.
-/
import proofs.«153560_j61091614819044_2_alg».proof.Proof.BitsData

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole is five shares of it: the full share halved four times. -/
theorem five_shares (ℓ : Loc nD τ sig) (f : ℓ.ty.Contents (Elt F)) :
    (ℓ ↦{fullShare} f : sProp 𝕄) ⊢ iprop((ℓ ↦{fullShare.left} f) ∗ (ℓ ↦{fullShare.right.left} f) ∗ (ℓ ↦{fullShare.right.right.left} f)
      ∗ (ℓ ↦{fullShare.right.right.right.left} f) ∗ (ℓ ↦{fullShare.right.right.right.right} f)) := by
  iintro H
  ihave S := (pointsTo_share (PosShare.mem_left_op_right fullShare)).1 $$ H
  icases S with ⟨H1, R1⟩
  ihave S := (pointsTo_share (PosShare.mem_left_op_right fullShare.right)).1 $$ R1
  icases S with ⟨H2, R2⟩
  ihave S := (pointsTo_share (PosShare.mem_left_op_right fullShare.right.right)).1 $$ R2
  icases S with ⟨H3, R3⟩
  ihave S := (pointsTo_share (PosShare.mem_left_op_right fullShare.right.right.right)).1 $$ R3
  icases S with ⟨H4, H5⟩
  isplitl [H1]; · iexact H1
  isplitl [H2]; · iexact H2
  isplitl [H3]; · iexact H3
  isplitl [H4]; · iexact H4
  iexact H5

/-- The distinct buffers behind the fifteen windows, one by one: the two activations in their narrow format, the weight
    matrix in its narrow format, the bias as a row, c_prev, and the two results. -/
theorem arrBufs_listed (c : Dev nD) :
    (Pipeline.arrBufs (Ix := Unit) (Name := ℕ) (U := UR sig nD τ) (Lvl := ℕ) spec0 c (entry m c) : sProp 𝕄)
      = iprop((((c : Thread nD τ).loc main_v0) ↦{fullShare} entry m c main_v0) ∗ (((c : Thread nD τ).loc main_v1) ↦{fullShare} entry m c main_v1) ∗ (((c : Thread nD τ).loc main_v2) ↦{fullShare} entry m c main_v2) ∗ (((c : Thread nD τ).loc main_v3) ↦{fullShare} entry m c main_v3) ∗ (((c : Thread nD τ).loc main_arg2) ↦{fullShare} entry m c main_arg2) ∗ (((c : Thread nD τ).loc main_v4_0) ↦{fullShare} entry m c main_v4_0) ∗ (((c : Thread nD τ).loc main_v4_1) ↦{fullShare} entry m c main_v4_1)) := by
  unfold Pipeline.arrBufs
  exact bigSep_eq_bigSepL_of_eq [main_v0, main_v1, main_v2, main_v3, main_arg2, main_v4_0, main_v4_1] (by decide) (by decide) _

/-- The invariant at every point: the core's scoped buffers that are no staging buffer. -/
theorem dats_inv (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- The windows' arrays as points-tos of whole buffers, each at the proof data's share. -/
theorem arrays_whole (c : Dev nD) (G : (w : Fin cfg0.W) → Buf (Elt F) ((cfg0.win w).arr.view.loc (c.tc : Thread nD τ))) :
    (dats m 0 c).arrays G
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- The seven buffers behind the windows, each whole at its entry contents, are the fifteen windows' arrays at the
    proof data's shares. -/
theorem arrays_dealt (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  rw [arrBufs_listed, arrays_whole, bigSep_W0]
  iintro ⟨Hx, Hh, Hw, Hb, Hc, Ho0, Ho1⟩
  ihave Sw := (five_shares _ _) $$ Hw
  icases Sw with ⟨Hw1, Hw2, Hw3, Hw4, Hw5⟩
  ihave Sb := (five_shares _ _) $$ Hb
  icases Sb with ⟨Hb1, Hb2, Hb3, Hb4, Hb5⟩
  isplitl [Hx]; · iexact Hx
  isplitl [Hh]; · iexact Hh
  isplitl [Hw1]; · iexact Hw1
  isplitl [Hw2]; · iexact Hw2
  isplitl [Hw3]; · iexact Hw3
  isplitl [Hw4]; · iexact Hw4
  isplitl [Hw5]; · iexact Hw5
  isplitl [Hb1]; · iexact Hb1
  isplitl [Hb2]; · iexact Hb2
  isplitl [Hb3]; · iexact Hb3
  isplitl [Hb4]; · iexact Hb4
  isplitl [Hb5]; · iexact Hb5
  isplitl [Hc]; · iexact Hc
  isplitl [Ho0]; · iexact Ho0
  iexact Ho1

set_option backward.isDefEq.respectTransparency.types false in
/-- THE RUN: from any memory with zero counters every weakly fair execution of @main terminates, and every final
    state has each window's array at what the library computes from the proof data and every other unscoped buffer as
    the region found it. -/
theorem run_main : θ_run defs (onTc (τ := τ) (main (F := F))) (s₀ m ρ) (Pipeline.FramePost cfgs (dats m) 0 (entry m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := entry m) (hmain := main_to_region m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := fun c => by
      rw [dats_inv]
      iintro ⟨-, H⟩
      iexact H)
    (hout := fun c => by
      rw [dats_inv]
      iintro H
      isplitr; · iempintro
      iexact H)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h => h)

/-- THE FRAME: every weakly fair execution of @main terminates, nothing faults, and the five argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).1 12).trans (((dats m 0 c).arrAt_in 12 rfl _).trans ((dats_A m c 12).trans (entry_arg2 m c))),
     ((h c).2 main_arg3 (Pipeline.mem_restRefs_of main_arg3 (by decide) (by decide))).trans (entry_arg3 m c),
     ((h c).2 main_arg4 (Pipeline.mem_restRefs_of main_arg4 (by decide) (by decide))).trans (entry_arg4 m c)⟩) (run_main m ρ)

end Cert.Kernel.Region

end
-- ==== Proof.IdealRegion.lean ====
/-
  The region's entry for the cell kernel: what the TensorCore's buffers hold when the one pallas_call is entered
  (the launch memory after the four host operations — three changes of float format and the reshape of the bias),
  that @main is those operations followed by the region, that none of them writes an argument array, each window's
  block at a grid point as a function of the entry contents, and that an input window's current staging buffer
  holds its block at every point, whether the pipeline fetched it there or kept it from an earlier point.
-/
import proofs.«153560_j61091614819044_2_alg».proof.Proof.Gen.KernelIdeal.Launch
import proofs.«153560_j61091614819044_2_alg».proof.Proof.Gen.KernelIdeal.Skeleton
import proofs.«153560_j61091614819044_2_alg».proof.Proof.Gen.KernelIdeal.Points
import Idealize.ShloMosaic.Lib.Pipeline.FrameBody
import Idealize.ShloMosaic.Lib.Pipeline.Frame

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)

variable {F : FTy → Type} [FloatOps F]

variable (m : (ℓ : Loc nD τ sig) → Buf (Elt F) ℓ)

/-- Core `c`'s buffers when the region is entered: the launch memory after the host operations. -/
abbrev entry (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- @main is the host operations, then the region, which finds the buffers at `entry`. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer none of the four host operations writes is found as launched. -/
theorem entry_of_unwritten (c : Dev nD) (b : Ref sig .tc)
    (h0 : b ≠ main_v0) (h1 : b ≠ main_v1) (h2 : b ≠ main_v2) (h3 : b ≠ main_v3) :
    entry m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

theorem entry_arg0 (c : Dev nD) : entry m c main_arg0 = m ((c : Thread nD τ).loc main_arg0) :=
  entry_of_unwritten m c _ (by decide) (by decide) (by decide) (by decide)
theorem entry_arg1 (c : Dev nD) : entry m c main_arg1 = m ((c : Thread nD τ).loc main_arg1) :=
  entry_of_unwritten m c _ (by decide) (by decide) (by decide) (by decide)
theorem entry_arg2 (c : Dev nD) : entry m c main_arg2 = m ((c : Thread nD τ).loc main_arg2) :=
  entry_of_unwritten m c _ (by decide) (by decide) (by decide) (by decide)
theorem entry_arg3 (c : Dev nD) : entry m c main_arg3 = m ((c : Thread nD τ).loc main_arg3) :=
  entry_of_unwritten m c _ (by decide) (by decide) (by decide) (by decide)
theorem entry_arg4 (c : Dev nD) : entry m c main_arg4 = m ((c : Thread nD τ).loc main_arg4) :=
  entry_of_unwritten m c _ (by decide) (by decide) (by decide) (by decide)

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## What the body finds in an input window

An input window is never cut and never idle, and the body leaves its block in place; so at a point that does not
fetch it (its block index has not moved since the last fetch) the buffer still holds the block. -/

theorem found_in0 {c : Dev nD} (dat : Dat τ (Elt F) Unit ℕ (UR sig nD τ) ℕ cfg0 c)
    (hA : dat.A 0 = entry m c (Pipeline.arrRef spec0 0)) (hafter : ∀ t, dat.after 0 t = blockAt m c 0 t)
    (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
theorem found_in1 {c : Dev nD} (dat : Dat τ (Elt F) Unit ℕ (UR sig nD τ) ℕ cfg0 c)
    (hA : dat.A 1 = entry m c (Pipeline.arrRef spec0 1)) (hafter : ∀ t, dat.after 1 t = blockAt m c 1 t)
    (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)
theorem found_in2 {c : Dev nD} (dat : Dat τ (Elt F) Unit ℕ (UR sig nD τ) ℕ cfg0 c)
    (hA : dat.A 2 = entry m c (Pipeline.arrRef spec0 2)) (hafter : ∀ t, dat.after 2 t = blockAt m c 2 t)
    (t : Fin cfg0.N) (d) : dat.before 2 t d = blockAt m c 2 t :=
  (dat.before_in_eq_fetched 2 rfl (fun _ => rfl) (fun _ _ _ => rfl)
    (fun t => by rw [hafter]; unfold Dat.blockOf blockAt; rw [hA]; try rfl) t d).trans
    (by unfold Dat.fetched Dat.blockOf blockAt; rw [hA]; try rfl)
theorem found_in3 {c : Dev nD} (dat : Dat τ (Elt F) Unit ℕ (UR sig nD τ) ℕ cfg0 c)
    (hA : dat.A 3 = entry m c (Pipeline.arrRef spec0 3)) (hafter : ∀ t, dat.after 3 t = blockAt m c 3 t)
    (t : Fin cfg0.N) (d) : dat.before 3 t d = blockAt m c 3 t :=
  (dat.before_in_eq_fetched 3 rfl (fun _ => rfl) (fun _ _ _ => rfl)
    (fun t => by rw [hafter]; unfold Dat.blockOf blockAt; rw [hA]; try rfl) t d).trans
    (by unfold Dat.fetched Dat.blockOf blockAt; rw [hA]; try rfl)
theorem found_in4 {c : Dev nD} (dat : Dat τ (Elt F) Unit ℕ (UR sig nD τ) ℕ cfg0 c)
    (hA : dat.A 4 = entry m c (Pipeline.arrRef spec0 4)) (hafter : ∀ t, dat.after 4 t = blockAt m c 4 t)
    (t : Fin cfg0.N) (d) : dat.before 4 t d = blockAt m c 4 t :=
  (dat.before_in_eq_fetched 4 rfl (fun _ => rfl) (fun _ _ _ => rfl)
    (fun t => by rw [hafter]; unfold Dat.blockOf blockAt; rw [hA]; try rfl) t d).trans
    (by unfold Dat.fetched Dat.blockOf blockAt; rw [hA]; try rfl)
theorem found_in5 {c : Dev nD} (dat : Dat τ (Elt F) Unit ℕ (UR sig nD τ) ℕ cfg0 c)
    (hA : dat.A 5 = entry m c (Pipeline.arrRef spec0 5)) (hafter : ∀ t, dat.after 5 t = blockAt m c 5 t)
    (t : Fin cfg0.N) (d) : dat.before 5 t d = blockAt m c 5 t :=
  (dat.before_in_eq_fetched 5 rfl (fun _ => rfl) (fun _ _ _ => rfl)
    (fun t => by rw [hafter]; unfold Dat.blockOf blockAt; rw [hA]; try rfl) t d).trans
    (by unfold Dat.fetched Dat.blockOf blockAt; rw [hA]; try rfl)
theorem found_in6 {c : Dev nD} (dat : Dat τ (Elt F) Unit ℕ (UR sig nD τ) ℕ cfg0 c)
    (hA : dat.A 6 = entry m c (Pipeline.arrRef spec0 6)) (hafter : ∀ t, dat.after 6 t = blockAt m c 6 t)
    (t : Fin cfg0.N) (d) : dat.before 6 t d = blockAt m c 6 t :=
  (dat.before_in_eq_fetched 6 rfl (fun _ => rfl) (fun _ _ _ => rfl)
    (fun t => by rw [hafter]; unfold Dat.blockOf blockAt; rw [hA]; try rfl) t d).trans
    (by unfold Dat.fetched Dat.blockOf blockAt; rw [hA]; try rfl)
theorem found_in7 {c : Dev nD} (dat : Dat τ (Elt F) Unit ℕ (UR sig nD τ) ℕ cfg0 c)
    (hA : dat.A 7 = entry m c (Pipeline.arrRef spec0 7)) (hafter : ∀ t, dat.after 7 t = blockAt m c 7 t)
    (t : Fin cfg0.N) (d) : dat.before 7 t d = blockAt m c 7 t :=
  (dat.before_in_eq_fetched 7 rfl (fun _ => rfl) (fun _ _ _ => rfl)
    (fun t => by rw [hafter]; unfold Dat.blockOf blockAt; rw [hA]; try rfl) t d).trans
    (by unfold Dat.fetched Dat.blockOf blockAt; rw [hA]; try rfl)
theorem found_in8 {c : Dev nD} (dat : Dat τ (Elt F) Unit ℕ (UR sig nD τ) ℕ cfg0 c)
    (hA : dat.A 8 = entry m c (Pipeline.arrRef spec0 8)) (hafter : ∀ t, dat.after 8 t = blockAt m c 8 t)
    (t : Fin cfg0.N) (d) : dat.before 8 t d = blockAt m c 8 t :=
  (dat.before_in_eq_fetched 8 rfl (fun _ => rfl) (fun _ _ _ => rfl)
    (fun t => by rw [hafter]; unfold Dat.blockOf blockAt; rw [hA]; try rfl) t d).trans
    (by unfold Dat.fetched Dat.blockOf blockAt; rw [hA]; try rfl)
theorem found_in9 {c : Dev nD} (dat : Dat τ (Elt F) Unit ℕ (UR sig nD τ) ℕ cfg0 c)
    (hA : dat.A 9 = entry m c (Pipeline.arrRef spec0 9)) (hafter : ∀ t, dat.after 9 t = blockAt m c 9 t)
    (t : Fin cfg0.N) (d) : dat.before 9 t d = blockAt m c 9 t :=
  (dat.before_in_eq_fetched 9 rfl (fun _ => rfl) (fun _ _ _ => rfl)
    (fun t => by rw [hafter]; unfold Dat.blockOf blockAt; rw [hA]; try rfl) t d).trans
    (by unfold Dat.fetched Dat.blockOf blockAt; rw [hA]; try rfl)
theorem found_in10 {c : Dev nD} (dat : Dat τ (Elt F) Unit ℕ (UR sig nD τ) ℕ cfg0 c)
    (hA : dat.A 10 = entry m c (Pipeline.arrRef spec0 10)) (hafter : ∀ t, dat.after 10 t = blockAt m c 10 t)
    (t : Fin cfg0.N) (d) : dat.before 10 t d = blockAt m c 10 t :=
  (dat.before_in_eq_fetched 10 rfl (fun _ => rfl) (fun _ _ _ => rfl)
    (fun t => by rw [hafter]; unfold Dat.blockOf blockAt; rw [hA]; try rfl) t d).trans
    (by unfold Dat.fetched Dat.blockOf blockAt; rw [hA]; try rfl)
theorem found_in11 {c : Dev nD} (dat : Dat τ (Elt F) Unit ℕ (UR sig nD τ) ℕ cfg0 c)
    (hA : dat.A 11 = entry m c (Pipeline.arrRef spec0 11)) (hafter : ∀ t, dat.after 11 t = blockAt m c 11 t)
    (t : Fin cfg0.N) (d) : dat.before 11 t d = blockAt m c 11 t :=
  (dat.before_in_eq_fetched 11 rfl (fun _ => rfl) (fun _ _ _ => rfl)
    (fun t => by rw [hafter]; unfold Dat.blockOf blockAt; rw [hA]; try rfl) t d).trans
    (by unfold Dat.fetched Dat.blockOf blockAt; rw [hA]; try rfl)
theorem found_in12 {c : Dev nD} (dat : Dat τ (Elt F) Unit ℕ (UR sig nD τ) ℕ cfg0 c)
    (hA : dat.A 12 = entry m c (Pipeline.arrRef spec0 12)) (hafter : ∀ t, dat.after 12 t = blockAt m c 12 t)
    (t : Fin cfg0.N) (d) : dat.before 12 t d = blockAt m c 12 t :=
  (dat.before_in_eq_fetched 12 rfl (fun _ => rfl) (fun _ _ _ => rfl)
    (fun t => by rw [hafter]; unfold Dat.blockOf blockAt; rw [hA]; try rfl) t d).trans
    (by unfold Dat.fetched Dat.blockOf blockAt; rw [hA]; try rfl)

end Cert.KernelIdeal.Region

end
-- ==== Proof.IdealBody.lean ====
/-
  The kernel body as a function of what its windows hold. The body loads each of its thirteen input blocks whole
  (the batch tile of x and of h, five weight blocks, five bias rows, the tile of c_prev), forms the five gate
  pre-activations  z_g = x · W_g[:1024] + h · W_g[1024:] + b_g,  and stores whole the new cell state
  c = σ(z_f) · c_prev + σ(z_i) · tanh(z_c)  and the new hidden state  h' = σ(z_e) · exp(u) + (1 − σ(z_e)) · u  with
  u = σ(z_o) · tanh(c). Here the two stored blocks are named as functions of the thirteen loaded blocks, over the
  generated payload terms, and the body is run once on symbolic staging buffers.
-/
import proofs.«153560_j61091614819044_2_alg».proof.Proof.Gen.KernelIdeal.Launch
import proofs.«153560_j61091614819044_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The whole-buffer rectangles the body reads and writes through -/

abbrev rX : Rect S256x1024 := Rect.unit (s := S256x1024) ![0, 0] S256x1024.size inb_S256x1024_S256x1024_0_0
abbrev rH : Rect S256x2048 := Rect.unit (s := S256x2048) ![0, 0] S256x2048.size inb_S256x2048_S256x2048_0_0
abbrev rW : Rect S3072x512 := Rect.unit (s := S3072x512) ![0, 0] S3072x512.size inb_S3072x512_S3072x512_0_0
abbrev rB : Rect S1x512 := Rect.unit (s := S1x512) ![0, 0] S1x512.size inb_S1x512_S1x512_0_0
abbrev rO : Rect S256x512 := Rect.unit (s := S256x512) ![0, 0] S256x512.size inb_S256x512_S256x512_0_0

/-! ## The stored values -/

/-- The forget gate's pre-activation, of the loaded blocks. -/
def preF (x : Vec F S256x1024 .bf16) (h : Vec F S256x2048 .bf16) (wf : Vec F S3072x512 .bf16) (bf : Vec F S1x512 .f32) : FVec F S256x512 .f32 :=
  k0_pay3 (View.ld x rX) (View.ld h rH) (View.ld wf rW) (View.ld bf rB)
/-- The input gate's. -/
def preI (x : Vec F S256x1024 .bf16) (h : Vec F S256x2048 .bf16) (wi : Vec F S3072x512 .bf16) (bi : Vec F S1x512 .f32) : FVec F S256x512 .f32 :=
  k0_pay4 (View.ld x rX) (View.ld h rH) (View.ld wi rW) (View.ld bi rB)
/-- The candidate's two matrix products, before its bias, -/
def preC (x : Vec F S256x1024 .bf16) (h : Vec F S256x2048 .bf16) (wc : Vec F S3072x512 .bf16) : FVec F S256x512 .f32 :=
  k0_pay5 (View.ld x rX) (View.ld h rH) (View.ld wc rW)
/-- and its bias row on every row of the tile. -/
def biasC (bc : Vec F S1x512 .f32) : FVec F S256x512 .f32 := k0_pay6 (View.ld bc rB)

/-- The new cell state's tile. -/
def cellTile (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) : FVec F S256x512 .f32 :=
  k0_pay7 (preF x h wf bf) (preI x h wi bi) (preC x h wc) (biasC bc) (View.ld cp rO)
/-- The new hidden state's tile. -/
def hiddenTile (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) : FVec F S256x512 .f32 :=
  k0_pay8 (k0_pay1 (View.ld x rX)) (k0_pay2 (View.ld h rH)) (preF x h wf bf) (preI x h wi bi) (preC x h wc) (biasC bc)
    (View.ld wo rW) (View.ld bo rB) (View.ld we rW) (View.ld be rB) (View.ld cp rO)

/-- What the hidden state's staging buffer holds after the body: its one store, of the whole tile. -/
def hiddenBuf (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) : Vec F S256x512 .f32 :=
  View.canon [⟨rO, hiddenTile x h wf wi wc wo we bf bi bc bo be cp⟩]
/-- What the cell state's staging buffer holds after the body. -/
def cellBuf (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) : Vec F S256x512 .f32 :=
  View.canon [⟨rO, cellTile x h wf wi wc wo we bf bi bc bo be cp⟩]

/-- One store of the whole tile covers the buffer. -/
theorem whole_store_covers (p : Vec F S256x512 .f32) (y : S256x512.Idx) :
    ∃ pc ∈ ([⟨rO, p⟩] : List (View.Piece (Elt F) S256x512 .f32)), y ∈ pc.1.set :=
  View.cover_of_tiled [⟨rO, p⟩] S256x512.size (by rfl) y

/-! ## The body's triple -/

set_option maxHeartbeats 4000000 in
/-- On whole staging buffers, the inputs' holding `x … cp` and the outputs' anything, the body runs to a state with
    the inputs' as they were and the outputs' at `hiddenBuf` and `cellBuf` of the inputs'. -/
theorem body_runs (c : Dev nD) (E : Set ℕ) (i : grid0.Coords) (a2 : Memref sig .tc .vmem S256x1024 .bf16) (w2 : a2.IsWhole) (a3 : Memref sig .tc .vmem S256x2048 .bf16) (w3 : a3.IsWhole) (a4 : Memref sig .tc .vmem S3072x512 .bf16) (w4 : a4.IsWhole) (a5 : Memref sig .tc .vmem S3072x512 .bf16) (w5 : a5.IsWhole) (a6 : Memref sig .tc .vmem S3072x512 .bf16) (w6 : a6.IsWhole) (a7 : Memref sig .tc .vmem S3072x512 .bf16) (w7 : a7.IsWhole) (a8 : Memref sig .tc .vmem S3072x512 .bf16) (w8 : a8.IsWhole) (a9 : Memref sig .tc .vmem S1x512 .f32) (w9 : a9.IsWhole) (a10 : Memref sig .tc .vmem S1x512 .f32) (w10 : a10.IsWhole) (a11 : Memref sig .tc .vmem S1x512 .f32) (w11 : a11.IsWhole) (a12 : Memref sig .tc .vmem S1x512 .f32) (w12 : a12.IsWhole) (a13 : Memref sig .tc .vmem S1x512 .f32) (w13 : a13.IsWhole) (a14 : Memref sig .tc .vmem S256x512 .f32) (w14 : a14.IsWhole) (a15 : Memref sig .tc .vmem S256x512 .f32) (w15 : a15.IsWhole) (a16 : Memref sig .tc .vmem S256x512 .f32) (w16 : a16.IsWhole)
    (x : Vec F S256x1024 .bf16) (h : Vec F S256x2048 .bf16) (wf : Vec F S3072x512 .bf16) (wi : Vec F S3072x512 .bf16) (wc : Vec F S3072x512 .bf16) (wo : Vec F S3072x512 .bf16) (we : Vec F S3072x512 .bf16) (bf : Vec F S1x512 .f32) (bi : Vec F S1x512 .f32) (bc : Vec F S1x512 .f32) (bo : Vec F S1x512 .f32) (be : Vec F S1x512 .f32) (cp : Vec F S256x512 .f32) (K : PUnit → sProp 𝕄) :
    iprop(owns (c : Thread nD τ) a2 fullShare x ∗ owns (c : Thread nD τ) a3 fullShare h ∗ owns (c : Thread nD τ) a4 fullShare wf ∗ owns (c : Thread nD τ) a5 fullShare wi ∗ owns (c : Thread nD τ) a6 fullShare wc ∗ owns (c : Thread nD τ) a7 fullShare wo ∗ owns (c : Thread nD τ) a8 fullShare we ∗ owns (c : Thread nD τ) a9 fullShare bf ∗ owns (c : Thread nD τ) a10 fullShare bi ∗ owns (c : Thread nD τ) a11 fullShare bc ∗ owns (c : Thread nD τ) a12 fullShare bo ∗ owns (c : Thread nD τ) a13 fullShare be ∗ owns (c : Thread nD τ) a14 fullShare cp
        ∗ (∃ d, owns (c : Thread nD τ) a15 fullShare d) ∗ (∃ d, owns (c : Thread nD τ) a16 fullShare d)
        ∗ (iprop(owns (c : Thread nD τ) a2 fullShare x ∗ owns (c : Thread nD τ) a3 fullShare h ∗ owns (c : Thread nD τ) a4 fullShare wf ∗ owns (c : Thread nD τ) a5 fullShare wi ∗ owns (c : Thread nD τ) a6 fullShare wc ∗ owns (c : Thread nD τ) a7 fullShare wo ∗ owns (c : Thread nD τ) a8 fullShare we ∗ owns (c : Thread nD τ) a9 fullShare bf ∗ owns (c : Thread nD τ) a10 fullShare bi ∗ owns (c : Thread nD τ) a11 fullShare bc ∗ owns (c : Thread nD τ) a12 fullShare bo ∗ owns (c : Thread nD τ) a13 fullShare be ∗ owns (c : Thread nD τ) a14 fullShare cp
            ∗ owns (c : Thread nD τ) a15 fullShare (hiddenBuf x h wf wi wc wo we bf bi bc bo be cp)
            ∗ owns (c : Thread nD τ) a16 fullShare (cellBuf x h wf wi wc wo we bf bi bc bo be cp)) -∗ K ⟨⟩))
      ⊢ wp frame (wpE (defs₀ (F := F)) Variants.none c none) E (cc0__xlstm_kernel i a2 w2 a3 w3 a4 w4 a5 w5 a6 w6 a7 w7 a8 w8 a9 w9 a10 w10 a11 w11 a12 w12 a13 w13 a14 w14 a15 w15 a16 w16) K := by
  simp only [cc0__xlstm_kernel_eq_skeleton]; unfold cc0__xlstm_kernel_skel
  simp only [k0_part1_eq_skeleton, k0_part2_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%d15, %f15, -, H15⟩, ⟨%d16, %f16, -, H16⟩, Hk⟩
  subst e2 e3 e4 e5 e6 e7 e8 e9 e10 e11 e12 e13 e14
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    exact View.read_writes_eq_canon _ _ _ (whole_store_covers _)
  iexists _; isplitr
  swap; · iexact H16
  ipureintro
  exact View.read_writes_eq_canon _ _ _ (whole_store_covers _)

end Cert.KernelIdeal.Region

end
-- ==== Proof.IdealData.lean ====
/-
  The pipeline's proof data for the cell kernel, and the body's obligation at every grid point.
  After the body at point `t` every input window's buffer still holds its block, the hidden state's buffer holds
  `hiddenBuf` and the cell state's `cellBuf` of the thirteen input blocks at `t`. The weight matrix is handed to the
  kernel through five windows and the bias row through five: each of those arrays is held in five shares, one per
  window reading it (left, right-left, right-right-left, …), the other inputs and the two outputs whole. The body
  keeps nothing of its own between points, so the invariant is just the core's scoped buffers that are no staging buffer.
-/
import proofs.«153560_j61091614819044_2_alg».proof.Proof.IdealRegion
import proofs.«153560_j61091614819044_2_alg».proof.Proof.IdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ)

/-- The proof data of the one pipeline on core `c`. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => blockAt m c 8 t
    | ⟨9, _⟩ => blockAt m c 9 t
    | ⟨10, _⟩ => blockAt m c 10 t
    | ⟨11, _⟩ => blockAt m c 11 t
    | ⟨12, _⟩ => blockAt m c 12 t
    | ⟨13, _⟩ => hiddenBuf (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t)
    | ⟨14, _⟩ => cellBuf (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t)
  Φ _ := Pipeline.scopedRest (Ix := Unit) (Name := ℕ) (U := UR sig nD τ) (Lvl := ℕ) (Val := Elt F) spec0 c
  q w := match w with
    | ⟨0, _⟩ => fullShare
    | ⟨1, _⟩ => fullShare
    | ⟨2, _⟩ => fullShare.left
    | ⟨3, _⟩ => fullShare.right.left
    | ⟨4, _⟩ => fullShare.right.right.left
    | ⟨5, _⟩ => fullShare.right.right.right.left
    | ⟨6, _⟩ => fullShare.right.right.right.right
    | ⟨7, _⟩ => fullShare.left
    | ⟨8, _⟩ => fullShare.right.left
    | ⟨9, _⟩ => fullShare.right.right.left
    | ⟨10, _⟩ => fullShare.right.right.right.left
    | ⟨11, _⟩ => fullShare.right.right.right.right
    | ⟨12, _⟩ => fullShare
    | ⟨13, _⟩ => fullShare
    | ⟨14, _⟩ => fullShare
  owed _ := 0

theorem dats_A (c : Dev nD) (w : Fin cfg0.W) : (dats m 0 c).A w = entry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
theorem after_in7 (c : Dev nD) (t : Fin cfg0.N) : (dats m 0 c).after 7 t = blockAt m c 7 t := by dsimp only [dats]
theorem after_in8 (c : Dev nD) (t : Fin cfg0.N) : (dats m 0 c).after 8 t = blockAt m c 8 t := by dsimp only [dats]
theorem after_in9 (c : Dev nD) (t : Fin cfg0.N) : (dats m 0 c).after 9 t = blockAt m c 9 t := by dsimp only [dats]
theorem after_in10 (c : Dev nD) (t : Fin cfg0.N) : (dats m 0 c).after 10 t = blockAt m c 10 t := by dsimp only [dats]
theorem after_in11 (c : Dev nD) (t : Fin cfg0.N) : (dats m 0 c).after 11 t = blockAt m c 11 t := by dsimp only [dats]
theorem after_in12 (c : Dev nD) (t : Fin cfg0.N) : (dats m 0 c).after 12 t = blockAt m c 12 t := by dsimp only [dats]
theorem after_hidden (c : Dev nD) (t : Fin cfg0.N) : (dats m 0 c).after 13 t = hiddenBuf (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) := by dsimp only [dats]
theorem after_cell (c : Dev nD) (t : Fin cfg0.N) : (dats m 0 c).after 14 t = cellBuf (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) := by dsimp only [dats]

theorem before_in0 (c : Dev nD) (t : Fin cfg0.N) (d) : (dats m 0 c).before 0 t d = blockAt m c 0 t :=
  found_in0 m (dats m 0 c) (dats_A m c 0) (after_in0 m c) t d
theorem before_in1 (c : Dev nD) (t : Fin cfg0.N) (d) : (dats m 0 c).before 1 t d = blockAt m c 1 t :=
  found_in1 m (dats m 0 c) (dats_A m c 1) (after_in1 m c) t d
theorem before_in2 (c : Dev nD) (t : Fin cfg0.N) (d) : (dats m 0 c).before 2 t d = blockAt m c 2 t :=
  found_in2 m (dats m 0 c) (dats_A m c 2) (after_in2 m c) t d
theorem before_in3 (c : Dev nD) (t : Fin cfg0.N) (d) : (dats m 0 c).before 3 t d = blockAt m c 3 t :=
  found_in3 m (dats m 0 c) (dats_A m c 3) (after_in3 m c) t d
theorem before_in4 (c : Dev nD) (t : Fin cfg0.N) (d) : (dats m 0 c).before 4 t d = blockAt m c 4 t :=
  found_in4 m (dats m 0 c) (dats_A m c 4) (after_in4 m c) t d
theorem before_in5 (c : Dev nD) (t : Fin cfg0.N) (d) : (dats m 0 c).before 5 t d = blockAt m c 5 t :=
  found_in5 m (dats m 0 c) (dats_A m c 5) (after_in5 m c) t d
theorem before_in6 (c : Dev nD) (t : Fin cfg0.N) (d) : (dats m 0 c).before 6 t d = blockAt m c 6 t :=
  found_in6 m (dats m 0 c) (dats_A m c 6) (after_in6 m c) t d
theorem before_in7 (c : Dev nD) (t : Fin cfg0.N) (d) : (dats m 0 c).before 7 t d = blockAt m c 7 t :=
  found_in7 m (dats m 0 c) (dats_A m c 7) (after_in7 m c) t d
theorem before_in8 (c : Dev nD) (t : Fin cfg0.N) (d) : (dats m 0 c).before 8 t d = blockAt m c 8 t :=
  found_in8 m (dats m 0 c) (dats_A m c 8) (after_in8 m c) t d
theorem before_in9 (c : Dev nD) (t : Fin cfg0.N) (d) : (dats m 0 c).before 9 t d = blockAt m c 9 t :=
  found_in9 m (dats m 0 c) (dats_A m c 9) (after_in9 m c) t d
theorem before_in10 (c : Dev nD) (t : Fin cfg0.N) (d) : (dats m 0 c).before 10 t d = blockAt m c 10 t :=
  found_in10 m (dats m 0 c) (dats_A m c 10) (after_in10 m c) t d
theorem before_in11 (c : Dev nD) (t : Fin cfg0.N) (d) : (dats m 0 c).before 11 t d = blockAt m c 11 t :=
  found_in11 m (dats m 0 c) (dats_A m c 11) (after_in11 m c) t d
theorem before_in12 (c : Dev nD) (t : Fin cfg0.N) (d) : (dats m 0 c).before 12 t d = blockAt m c 12 t :=
  found_in12 m (dats m 0 c) (dats_A m c 12) (after_in12 m c) t d

/-! ## The body obligation at a symbolic point -/

/-- What the body is called with at point `t`, the windows one by one, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

/-- At any point the inputs' buffers hold their blocks, so the body's triple applies; the invariant and what the
    core owes pass through unread. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_in0, before_in1, before_in2, before_in3, before_in4, before_in5, before_in6, before_in7, before_in8, before_in9, before_in10, before_in11, before_in12]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9, after_in10, after_in11, after_in12, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_runs c Set.univ _ _ _ _ _ _ _ _ _ _ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The library's body obligation, at every point. -/
theorem body_obligation (c : Dev nD) :
    BodyObligation (dats (F := F) m 0 c) (defs₀ (F := F)) Variants.none () Set.univ := fun t => by
  rw [bigSep_W0, bigSep_W0]
  exact body_at m c t

end Cert.KernelIdeal.Region

end
-- ==== Proof.IdealLaunch.lean ====
/-
  The launch of the cell kernel's one region, and the frame.
  The seven distinct buffers behind the fifteen windows are each held whole when the region is entered. The weight
  matrix's buffer is dealt to the five windows that read it, and the bias row's likewise, by halving the full share
  four times: left, right-left, right-right-left, right-right-right-left, and what is left (right four times). With that
  the library's launch for input windows sharing an array applies: every weakly fair execution terminates, every
  window's array ends at what the library computes from the proof data, and every other unscoped buffer as the
  region found it. An argument array is either a bypassing buffer no host operation wrote (x, h_prev, W, b) or an
  input window's array (c_prev), so all five end as launched.
-/
import proofs.«153560_j61091614819044_2_alg».proof.Proof.IdealData

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer held whole is five shares of it: the full share halved four times. -/
theorem five_shares (ℓ : Loc nD τ sig) (f : ℓ.ty.Contents (Elt F)) :
    (ℓ ↦{fullShare} f : sProp 𝕄) ⊢ iprop((ℓ ↦{fullShare.left} f) ∗ (ℓ ↦{fullShare.right.left} f) ∗ (ℓ ↦{fullShare.right.right.left} f)
      ∗ (ℓ ↦{fullShare.right.right.right.left} f) ∗ (ℓ ↦{fullShare.right.right.right.right} f)) := by
  iintro H
  ihave S := (pointsTo_share (PosShare.mem_left_op_right fullShare)).1 $$ H
  icases S with ⟨H1, R1⟩
  ihave S := (pointsTo_share (PosShare.mem_left_op_right fullShare.right)).1 $$ R1
  icases S with ⟨H2, R2⟩
  ihave S := (pointsTo_share (PosShare.mem_left_op_right fullShare.right.right)).1 $$ R2
  icases S with ⟨H3, R3⟩
  ihave S := (pointsTo_share (PosShare.mem_left_op_right fullShare.right.right.right)).1 $$ R3
  icases S with ⟨H4, H5⟩
  isplitl [H1]; · iexact H1
  isplitl [H2]; · iexact H2
  isplitl [H3]; · iexact H3
  isplitl [H4]; · iexact H4
  iexact H5

/-- The distinct buffers behind the fifteen windows, one by one: the two activations in their narrow format, the weight
    matrix in its narrow format, the bias as a row, c_prev, and the two results. -/
theorem arrBufs_listed (c : Dev nD) :
    (Pipeline.arrBufs (Ix := Unit) (Name := ℕ) (U := UR sig nD τ) (Lvl := ℕ) spec0 c (entry m c) : sProp 𝕄)
      = iprop((((c : Thread nD τ).loc main_v0) ↦{fullShare} entry m c main_v0) ∗ (((c : Thread nD τ).loc main_v1) ↦{fullShare} entry m c main_v1) ∗ (((c : Thread nD τ).loc main_v2) ↦{fullShare} entry m c main_v2) ∗ (((c : Thread nD τ).loc main_v3) ↦{fullShare} entry m c main_v3) ∗ (((c : Thread nD τ).loc main_arg2) ↦{fullShare} entry m c main_arg2) ∗ (((c : Thread nD τ).loc main_v4_0) ↦{fullShare} entry m c main_v4_0) ∗ (((c : Thread nD τ).loc main_v4_1) ↦{fullShare} entry m c main_v4_1)) := by
  unfold Pipeline.arrBufs
  exact bigSep_eq_bigSepL_of_eq [main_v0, main_v1, main_v2, main_v3, main_arg2, main_v4_0, main_v4_1] (by decide) (by decide) _

/-- The invariant at every point: the core's scoped buffers that are no staging buffer. -/
theorem dats_inv (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- The windows' arrays as points-tos of whole buffers, each at the proof data's share. -/
theorem arrays_whole (c : Dev nD) (G : (w : Fin cfg0.W) → Buf (Elt F) ((cfg0.win w).arr.view.loc (c.tc : Thread nD τ))) :
    (dats m 0 c).arrays G
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- The seven buffers behind the windows, each whole at its entry contents, are the fifteen windows' arrays at the
    proof data's shares. -/
theorem arrays_dealt (c : Dev nD) :
    (Pipeline.arrBufs (Ix := Unit) (Name := ℕ) (U := UR sig nD τ) (Lvl := ℕ) spec0 c (entry m c) : sProp 𝕄)
      ⊢ (dats m 0 c).arrays ((dats m 0 c).arrAt · 0) := by
  rw [arrBufs_listed, arrays_whole, bigSep_W0]
  iintro ⟨Hx, Hh, Hw, Hb, Hc, Ho0, Ho1⟩
  ihave Sw := (five_shares _ _) $$ Hw
  icases Sw with ⟨Hw1, Hw2, Hw3, Hw4, Hw5⟩
  ihave Sb := (five_shares _ _) $$ Hb
  icases Sb with ⟨Hb1, Hb2, Hb3, Hb4, Hb5⟩
  isplitl [Hx]; · iexact Hx
  isplitl [Hh]; · iexact Hh
  isplitl [Hw1]; · iexact Hw1
  isplitl [Hw2]; · iexact Hw2
  isplitl [Hw3]; · iexact Hw3
  isplitl [Hw4]; · iexact Hw4
  isplitl [Hw5]; · iexact Hw5
  isplitl [Hb1]; · iexact Hb1
  isplitl [Hb2]; · iexact Hb2
  isplitl [Hb3]; · iexact Hb3
  isplitl [Hb4]; · iexact Hb4
  isplitl [Hb5]; · iexact Hb5
  isplitl [Hc]; · iexact Hc
  isplitl [Ho0]; · iexact Ho0
  iexact Ho1

set_option backward.isDefEq.respectTransparency.types false in
/-- THE RUN: from any memory with zero counters every weakly fair execution of @main terminates, and every final
    state has each window's array at what the library computes from the proof data and every other unscoped buffer as
    the region found it. -/
theorem run_main : θ_run defs (onTc (τ := τ) (main (F := F))) (s₀ m ρ) (Pipeline.FramePost cfgs (dats m) 0 (entry m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := entry m) (hmain := main_to_region m Variants.none)
    (hsplit := arrays_dealt m)
    (X := fun _ => iprop(emp)) (Y := fun _ => iprop(emp))
    (Z := fun c => Pipeline.unscopedRest (Ix := Unit) (Name := ℕ) (U := UR sig nD τ) (Lvl := ℕ) spec0 c (entry m c))
    (hX := fun c => by
      iintro H
      isplitr; · iempintro
      iexact H)
    (hin := fun c => by
      rw [dats_inv]
      iintro ⟨-, H⟩
      iexact H)
    (hout := fun c => by
      rw [dats_inv]
      iintro H
      isplitr; · iempintro
      iexact H)
    (QY := fun c s => ∀ b ∈ Pipeline.restRefs sig spec0, s.mem ((c.tc : Thread nD τ).loc b) = entry m c b)
    (hY := fun c s' => by
      iintro ⟨-, HU, HSI⟩
      unfold Pipeline.unscopedRest
      imodintro
      iapply (pointsTo_read_all (Pipeline.restRefs sig spec0) (fun b => (c.tc : Thread nD τ).loc b) (entry m c) s')
      isplitl [HU] <;> iassumption)
    (hQ := fun s h => h)

/-- THE FRAME: every weakly fair execution of @main terminates, nothing faults, and the five argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)) :=
  (θ_run defs _ _).mono (fun _ h c =>
    ⟨((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).1 12).trans (((dats m 0 c).arrAt_in 12 rfl _).trans ((dats_A m c 12).trans (entry_arg2 m c))),
     ((h c).2 main_arg3 (Pipeline.mem_restRefs_of main_arg3 (by decide) (by decide))).trans (entry_arg3 m c),
     ((h c).2 main_arg4 (Pipeline.mem_restRefs_of main_arg4 (by decide) (by decide))).trans (entry_arg4 m c)⟩) (run_main m ρ)

end Cert.KernelIdeal.Region

end
-- ==== Proof.CellSpec.lean ====
/-
  The cell's mathematics, stated once over extended-real arrays and independent of either program.

  For batch row r and hidden unit j, gate g ∈ {f, i, c, o, e} has the pre-activation
      z_g(r, j) = Σ_{k<1024} x[r,k] · W[k, 2048·g + j]  +  Σ_{k<2048} h[r,k] · W[1024 + k, 2048·g + j]  +  b[2048·g + j],
  the new cell state is   c'(r, j) = σ(z_f) · c[r,j] + σ(z_i) · tanh(z_c),
  and the new hidden state  h'(r, j) = σ(z_e) · exp(u) + (1 − σ(z_e)) · u  with  u = σ(z_o) · tanh(c'(r, j)).
  The kernel computes z_g in exactly this split form; the reference contracts the concatenation [x | h] against W in
  one sum over 3072, which is the same number because a finite sum over 1024 + 2048 indices splits at 1024 — a law of
  any commutative monoid, so it holds on the extended reals with no finiteness assumption.
-/
import Idealize.ShloMosaic.PureOps.Ideal
import Idealize.ShloMosaic.Lib.ValueIdx

noncomputable section

namespace Cert.CellSpec

open Idealize.ShloMosaic Idealize.ShloMosaic.ValueIdx
open scoped BigOperators

/-- Column `2048·g + j` of the fused weight matrix: hidden unit `j` of gate `g`. -/
def gcol (g : Fin 5) (j : Fin 2048) : Fin 10240 := ⟨2048 * g.val + j.val, by have := g.isLt; have := j.isLt; omega⟩

/-- Row `k` of the weight matrix's upper part (the rows that meet x), -/
def topRow (k : Fin 1024) : Fin 3072 := ⟨k.val, by have := k.isLt; omega⟩
/-- and row `1024 + k` of its lower part (the rows that meet h). -/
def lowRow (k : Fin 2048) : Fin 3072 := ⟨1024 + k.val, by have := k.isLt; omega⟩

/-- A sum over 3072 indices is the sum over the first 1024 plus the sum over the remaining 2048. -/
theorem sum_split {M : Type*} [AddCommMonoid M] (f : Fin 3072 → M) :
    ∑ k : Fin 3072, f k = ∑ k : Fin 1024, f (topRow k) + ∑ k : Fin 2048, f (lowRow k) := by
  have h := Fin.sum_univ_add (M := M) (a := 1024) (b := 2048) f
  refine h.trans ?_
  congr 1

/-- The pre-activation from one row of x, one row of h, one column of the weights and one bias entry. -/
def preAct (xr : Fin 1024 → EReal) (hr : Fin 2048 → EReal) (wc : Fin 3072 → EReal) (b : EReal) : EReal :=
  (∑ k : Fin 1024, xr k * wc (topRow k) + ∑ k : Fin 2048, hr k * wc (lowRow k)) + b

/-- The new cell state from the forget, input and candidate pre-activations and the old cell state. -/
def cellOf (zf zi zc c : EReal) : EReal := Ideal.logistic zf * c + Ideal.logistic zi * Ideal.tanh zc

/-- The new hidden state from the output and extra gates' pre-activations and the new cell state. -/
def hiddenOf (zo ze cnew : EReal) : EReal :=
  Ideal.logistic ze * Ideal.exp (Ideal.logistic zo * Ideal.tanh cnew)
    + (Ideal.ofBits .f32 0x3F800000#32 - Ideal.logistic ze) * (Ideal.logistic zo * Ideal.tanh cnew)

section Arrays

variable (X : (⟨2, ![4096, 1024]⟩ : Shape).Idx → EReal) (H C : (⟨2, ![4096, 2048]⟩ : Shape).Idx → EReal)
  (W : (⟨2, ![3072, 10240]⟩ : Shape).Idx → EReal) (B : (⟨1, ![10240]⟩ : Shape).Idx → EReal)

/-- Gate `g`'s pre-activation at batch row `r`, hidden unit `j`, of the five argument arrays. -/
def gatePre (g : Fin 5) (r : Fin 4096) (j : Fin 2048) : EReal :=
  preAct (fun k => X (ix2 r k)) (fun k => H (ix2 r k)) (fun k => W (ix2 k (gcol g j))) (B (ix1 (gcol g j)))

/-- The new cell state, as one function of the argument arrays. -/
def cellG : (⟨2, ![4096, 2048]⟩ : Shape).Idx → EReal := fun i =>
  cellOf (gatePre X H W B 0 (i 0) (i 1)) (gatePre X H W B 1 (i 0) (i 1)) (gatePre X H W B 2 (i 0) (i 1)) (C i)

/-- The new hidden state, as one function of the argument arrays. -/
def hiddenG : (⟨2, ![4096, 2048]⟩ : Shape).Idx → EReal := fun i =>
  hiddenOf (gatePre X H W B 3 (i 0) (i 1)) (gatePre X H W B 4 (i 0) (i 1)) (cellG X H C W B i)

end Arrays

/-- The pre-activation depends only on the values it reads. -/
theorem preAct_congr {xr xr' : Fin 1024 → EReal} {hr hr' : Fin 2048 → EReal} {wc wc' : Fin 3072 → EReal} {b b' : EReal}
    (hx : ∀ k, xr k = xr' k) (hh : ∀ k, hr k = hr' k) (hw : ∀ k, wc k = wc' k) (hb : b = b') :
    preAct xr hr wc b = preAct xr' hr' wc' b' := by
  rw [funext hx, funext hh, funext hw, hb]

/-- The reference's form: [x | h] contracted against the weight column in one sum over 3072. -/
theorem preAct_eq_joined (xr : Fin 1024 → EReal) (hr : Fin 2048 → EReal) (wc : Fin 3072 → EReal) (b : EReal)
    (xh : Fin 3072 → EReal) (hl : ∀ k, xh (topRow k) = xr k) (hu : ∀ k, xh (lowRow k) = hr k) :
    (∑ k : Fin 3072, xh k * wc k) + b = preAct xr hr wc b := by
  unfold preAct
  rw [sum_split]
  simp only [hl, hu]

end Cert.CellSpec

end
-- ==== Proof.KernelTile.lean ====
/-
  The kernel's two stored tiles read at an index, at the ideal instance: entry (p, q) of the cell-state tile is
  `cellOf` and of the hidden-state tile `hiddenOf` of the five pre-activations `preAct` formed from row p of the
  x and h blocks, column q of the gate's weight block and entry q of its bias row, and entry (p, q) of the c_prev block.
  Each matrix product into a zero accumulator is a plain sum over the contracted axis; the weight block's upper
  1024 rows meet x and its lower 2048 rows meet h; a change of float format and a cast to the same shape are the
  identity; the bias row is repeated on every row of the tile.
-/
import proofs.«153560_j61091614819044_2_alg».proof.Proof.IdealBody
import proofs.«153560_j61091614819044_2_alg».proof.Proof.CellSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region

open Cert.KernelIdeal Cert.KernelIdeal.Gen Cert.CellSpec
open Idealize.ShloMosaic Idealize.ShloMosaic.ValueIdx
open scoped BigOperators

theorem zero_off : (![0, 0] : Fin 2 → Nat) = fun _ => 0 := funext fun a => by fin_cases a <;> rfl

/-! ## The two matrix products -/

theorem top_lhs0 (j : S256x512.Idx) (k : dot_S256x1024_S1024x512_S256x512_1_0_0_1_n_n.contr.Idx) : (dot_S256x1024_S1024x512_S256x512_1_0_0_1_n_n.lhsIdx j k 0).val = (j 0).val := by
  unfold DotDims.lhsIdx
  rw [dif_neg (show ¬(0 : Fin S256x1024.rank) ∈ dot_S256x1024_S1024x512_S256x512_1_0_0_1_n_n.lhsBatch by decide),
    dif_pos (show (0 : Fin S256x1024.rank) ∈ dot_S256x1024_S1024x512_S256x512_1_0_0_1_n_n.lhsNonContracting by decide)]
  rfl
theorem top_rhs1 (j : S256x512.Idx) (k : dot_S256x1024_S1024x512_S256x512_1_0_0_1_n_n.contr.Idx) : (dot_S256x1024_S1024x512_S256x512_1_0_0_1_n_n.rhsIdx j k 1).val = (j 1).val := by
  unfold DotDims.rhsIdx
  rw [dif_neg (show ¬(1 : Fin S1024x512.rank) ∈ dot_S256x1024_S1024x512_S256x512_1_0_0_1_n_n.rhsBatch by decide),
    dif_pos (show (1 : Fin S1024x512.rank) ∈ dot_S256x1024_S1024x512_S256x512_1_0_0_1_n_n.rhsNonContracting by decide)]
  rfl

theorem low_lhs0 (j : S256x512.Idx) (k : dot_S256x2048_S2048x512_S256x512_1_0_0_1_n_n.contr.Idx) : (dot_S256x2048_S2048x512_S256x512_1_0_0_1_n_n.lhsIdx j k 0).val = (j 0).val := by
  unfold DotDims.lhsIdx
  rw [dif_neg (show ¬(0 : Fin S256x2048.rank) ∈ dot_S256x2048_S2048x512_S256x512_1_0_0_1_n_n.lhsBatch by decide),
    dif_pos (show (0 : Fin S256x2048.rank) ∈ dot_S256x2048_S2048x512_S256x512_1_0_0_1_n_n.lhsNonContracting by decide)]
  rfl
theorem low_rhs1 (j : S256x512.Idx) (k : dot_S256x2048_S2048x512_S256x512_1_0_0_1_n_n.contr.Idx) : (dot_S256x2048_S2048x512_S256x512_1_0_0_1_n_n.rhsIdx j k 1).val = (j 1).val := by
  unfold DotDims.rhsIdx
  rw [dif_neg (show ¬(1 : Fin S2048x512.rank) ∈ dot_S256x2048_S2048x512_S256x512_1_0_0_1_n_n.rhsBatch by decide),
    dif_pos (show (1 : Fin S2048x512.rank) ∈ dot_S256x2048_S2048x512_S256x512_1_0_0_1_n_n.rhsNonContracting by decide)]
  rfl

/-- x against the weight block's upper 1024 rows, into zero: the sum over the 1024 contracted indices. -/
theorem prod_top (x : FVec Ideal S256x1024 .bf16) (w : FVec Ideal S3072x512 .bf16) (p : Fin 256) (q : Fin 512) :
    matmul dot_S256x1024_S1024x512_S256x512_1_0_0_1_n_n none x (extractStridedSlice S1024x512 ![0, 0] w slices_S3072x512_o0_0_S1024x512)
        (constant (F := Ideal) S256x512 .f32 0x00000000#32) (ix2 p q)
      = ∑ k : Fin 1024, x (ix2 p k) * w (ix2 (topRow k) q) := by
  refine (Ideal.matmul_constant_zero_apply dot_S256x1024_S1024x512_S256x512_1_0_0_1_n_n none x (extractStridedSlice S1024x512 ![0, 0] w slices_S3072x512_o0_0_S1024x512) (ix2 p q)).trans ?_
  rw [← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 p q) ((contrEquiv1 dot_S256x1024_S1024x512_S256x512_1_0_0_1_n_n 1024 rfl rfl).symm k) = ix2 p k :=
    funext fun a => Fin.ext (by
      match a with
      | ⟨0, _⟩ => exact top_lhs0 (ix2 p q) _
      | ⟨1, _⟩ => exact (dot_S256x1024_S1024x512_S256x512_1_0_0_1_n_n.lhsIdx_val_of_single rfl _ _).trans hk)
  rw [el]
  refine congrArg (x (ix2 p k) * ·) ?_
  refine extractStridedSlice_apply ![0, 0] w slices_S3072x512_o0_0_S1024x512 _ (ix2 (topRow k) q) fun a => ?_
  match a with
  | ⟨0, _⟩ =>
    show k.val = 0 + _
    rw [Nat.zero_add]
    exact ((dot_S256x1024_S1024x512_S256x512_1_0_0_1_n_n.rhsIdx_val_of_single rfl _ _).trans hk).symm
  | ⟨1, _⟩ =>
    show q.val = 0 + _
    rw [Nat.zero_add]
    exact (top_rhs1 (ix2 p q) _).symm

/-- h against the weight block's lower 2048 rows, into zero: the sum over the 2048 contracted indices. -/
theorem prod_low (h : FVec Ideal S256x2048 .bf16) (w : FVec Ideal S3072x512 .bf16) (p : Fin 256) (q : Fin 512) :
    matmul dot_S256x2048_S2048x512_S256x512_1_0_0_1_n_n none h (extractStridedSlice S2048x512 ![1024, 0] w slices_S3072x512_o1024_0_S2048x512)
        (constant (F := Ideal) S256x512 .f32 0x00000000#32) (ix2 p q)
      = ∑ k : Fin 2048, h (ix2 p k) * w (ix2 (lowRow k) q) := by
  refine (Ideal.matmul_constant_zero_apply dot_S256x2048_S2048x512_S256x512_1_0_0_1_n_n none h (extractStridedSlice S2048x512 ![1024, 0] w slices_S3072x512_o1024_0_S2048x512) (ix2 p q)).trans ?_
  rw [← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 p q) ((contrEquiv1 dot_S256x2048_S2048x512_S256x512_1_0_0_1_n_n 2048 rfl rfl).symm k) = ix2 p k :=
    funext fun a => Fin.ext (by
      match a with
      | ⟨0, _⟩ => exact low_lhs0 (ix2 p q) _
      | ⟨1, _⟩ => exact (dot_S256x2048_S2048x512_S256x512_1_0_0_1_n_n.lhsIdx_val_of_single rfl _ _).trans hk)
  rw [el]
  refine congrArg (h (ix2 p k) * ·) ?_
  refine extractStridedSlice_apply ![1024, 0] w slices_S3072x512_o1024_0_S2048x512 _ (ix2 (lowRow k) q) fun a => ?_
  match a with
  | ⟨0, _⟩ =>
    show 1024 + k.val = 1024 + _
    exact congrArg (1024 + ·) ((dot_S256x2048_S2048x512_S256x512_1_0_0_1_n_n.rhsIdx_val_of_single rfl _ _).trans hk).symm
  | ⟨1, _⟩ =>
    show q.val = 0 + _
    rw [Nat.zero_add]
    exact (low_rhs1 (ix2 p q) _).symm

/-! ## Whole-buffer loads -/

theorem ld_x (x : Vec Ideal S256x1024 .bf16) : View.ld x rX = x := View.ld_unit_zero (Val := Elt Ideal) zero_off _ x
theorem ld_h (h : Vec Ideal S256x2048 .bf16) : View.ld h rH = h := View.ld_unit_zero (Val := Elt Ideal) zero_off _ h
theorem ld_w (w : Vec Ideal S3072x512 .bf16) : View.ld w rW = w := View.ld_unit_zero (Val := Elt Ideal) zero_off _ w
theorem ld_b (b : Vec Ideal S1x512 .f32) : View.ld b rB = b := View.ld_unit_zero (Val := Elt Ideal) zero_off _ b
theorem ld_o (c : Vec Ideal S256x512 .f32) : View.ld c rO = c := View.ld_unit_zero (Val := Elt Ideal) zero_off _ c

/-! ## A gate's pre-activation -/

/-- The bias row, cast to its own shape and repeated down the tile, reads its entry in the column. -/
theorem bias_at (b : FVec Ideal S1x512 .f32) (p : Fin 256) (q : Fin 512) :
    broadcastTo S256x512 (shapeCast S1x512 b shapeCasts_S1x512_S1x512) broadcasts_S1x512_S256x512 (ix2 p q) = b (ix2 0 q) := by
  rw [shapeCast_self]
  refine broadcastTo_apply b broadcasts_S1x512_S256x512 (ix2 p q) (ix2 0 q) fun a => ?_
  match a with
  | ⟨0, _⟩ => show 0 = if (1 : Nat) = 1 then 0 else _; rw [if_pos rfl]
  | ⟨1, _⟩ => show q.val = if (512 : Nat) = 1 then 0 else _; rw [if_neg (by decide)]; rfl

/-- A gate's pre-activation as the body spells it, of loaded blocks: two products into zero, added, plus the bias row
    on every row. -/
def preOf (x : FVec Ideal S256x1024 .bf16) (h : FVec Ideal S256x2048 .bf16) (w : FVec Ideal S3072x512 .bf16) (b : FVec Ideal S1x512 .f32) : FVec Ideal S256x512 .f32 :=
  addf (addf (matmul dot_S256x1024_S1024x512_S256x512_1_0_0_1_n_n none (shapeCast S256x1024 x shapeCasts_S256x1024_S256x1024)
            (extractStridedSlice S1024x512 ![0, 0] (shapeCast S3072x512 w shapeCasts_S3072x512_S3072x512) slices_S3072x512_o0_0_S1024x512)
            (constant (F := Ideal) S256x512 .f32 0x00000000#32))
          (matmul dot_S256x2048_S2048x512_S256x512_1_0_0_1_n_n none (shapeCast S256x2048 h shapeCasts_S256x2048_S256x2048)
            (extractStridedSlice S2048x512 ![1024, 0] (shapeCast S3072x512 w shapeCasts_S3072x512_S3072x512) slices_S3072x512_o1024_0_S2048x512)
            (constant (F := Ideal) S256x512 .f32 0x00000000#32)))
        (broadcastTo S256x512 (shapeCast S1x512 b shapeCasts_S1x512_S1x512) broadcasts_S1x512_S256x512)

/-- Its entry (p, q) is the pre-activation of the blocks' row p, the weight block's column q and the bias entry q. -/
theorem preOf_at (x : FVec Ideal S256x1024 .bf16) (h : FVec Ideal S256x2048 .bf16) (w : FVec Ideal S3072x512 .bf16) (b : FVec Ideal S1x512 .f32) (p : Fin 256) (q : Fin 512) :
    preOf x h w b (ix2 p q) = preAct (fun k => x (ix2 p k)) (fun k => h (ix2 p k)) (fun k => w (ix2 k q)) (b (ix2 0 q)) := by
  unfold preOf
  rw [shapeCast_self x, shapeCast_self h, shapeCast_self w]
  show (_ + _) + _ = _
  rw [prod_top, prod_low, bias_at]
  rfl

/-- The same without the bias: the candidate gate's two products, which the body adds its bias to later. -/
def prodsOf (x : FVec Ideal S256x1024 .bf16) (h : FVec Ideal S256x2048 .bf16) (w : FVec Ideal S3072x512 .bf16) : FVec Ideal S256x512 .f32 :=
  addf (matmul dot_S256x1024_S1024x512_S256x512_1_0_0_1_n_n none (shapeCast S256x1024 x shapeCasts_S256x1024_S256x1024)
      (extractStridedSlice S1024x512 ![0, 0] (shapeCast S3072x512 w shapeCasts_S3072x512_S3072x512) slices_S3072x512_o0_0_S1024x512)
      (constant (F := Ideal) S256x512 .f32 0x00000000#32))
    (matmul dot_S256x2048_S2048x512_S256x512_1_0_0_1_n_n none (shapeCast S256x2048 h shapeCasts_S256x2048_S256x2048)
      (extractStridedSlice S2048x512 ![1024, 0] (shapeCast S3072x512 w shapeCasts_S3072x512_S3072x512) slices_S3072x512_o1024_0_S2048x512)
      (constant (F := Ideal) S256x512 .f32 0x00000000#32))

theorem prodsOf_at (x : FVec Ideal S256x1024 .bf16) (h : FVec Ideal S256x2048 .bf16) (w : FVec Ideal S3072x512 .bf16) (p : Fin 256) (q : Fin 512) :
    prodsOf x h w (ix2 p q)
      = ∑ k : Fin 1024, x (ix2 p k) * w (ix2 (topRow k) q) + ∑ k : Fin 2048, h (ix2 p k) * w (ix2 (lowRow k) q) := by
  unfold prodsOf
  rw [shapeCast_self x, shapeCast_self h, shapeCast_self w]
  show _ + _ = _
  rw [prod_top, prod_low]

theorem preF_at (x : Vec Ideal S256x1024 .bf16) (h : Vec Ideal S256x2048 .bf16) (w : Vec Ideal S3072x512 .bf16) (b : Vec Ideal S1x512 .f32) (p : Fin 256) (q : Fin 512) :
    preF x h w b (ix2 p q) = preAct (fun k => x (ix2 p k)) (fun k => h (ix2 p k)) (fun k => w (ix2 k q)) (b (ix2 0 q)) := by
  unfold preF
  rw [ld_x, ld_h, ld_w, ld_b]
  exact preOf_at x h w b p q

theorem preI_at (x : Vec Ideal S256x1024 .bf16) (h : Vec Ideal S256x2048 .bf16) (w : Vec Ideal S3072x512 .bf16) (b : Vec Ideal S1x512 .f32) (p : Fin 256) (q : Fin 512) :
    preI x h w b (ix2 p q) = preAct (fun k => x (ix2 p k)) (fun k => h (ix2 p k)) (fun k => w (ix2 k q)) (b (ix2 0 q)) := by
  unfold preI
  rw [ld_x, ld_h, ld_w, ld_b]
  exact preOf_at x h w b p q

theorem preC_at (x : Vec Ideal S256x1024 .bf16) (h : Vec Ideal S256x2048 .bf16) (w : Vec Ideal S3072x512 .bf16) (p : Fin 256) (q : Fin 512) :
    preC x h w (ix2 p q) = ∑ k : Fin 1024, x (ix2 p k) * w (ix2 (topRow k) q) + ∑ k : Fin 2048, h (ix2 p k) * w (ix2 (lowRow k) q) := by
  unfold preC
  rw [ld_x, ld_h, ld_w]
  exact prodsOf_at x h w p q

theorem biasC_at (b : Vec Ideal S1x512 .f32) (p : Fin 256) (q : Fin 512) : biasC b (ix2 p q) = b (ix2 0 q) := by
  unfold biasC
  rw [ld_b]
  exact bias_at b p q

/-! ## The two stored tiles -/

/-- Entry (p, q) of the cell-state tile. -/
theorem cellTile_at (x : Vec Ideal S256x1024 .bf16) (h : Vec Ideal S256x2048 .bf16) (wf wi wc wo we : Vec Ideal S3072x512 .bf16) (bf bi bc bo be : Vec Ideal S1x512 .f32) (cp : Vec Ideal S256x512 .f32) (p : Fin 256) (q : Fin 512) :
    cellTile x h wf wi wc wo we bf bi bc bo be cp (ix2 p q) = cellOf (preAct (fun k => x (ix2 p k)) (fun k => h (ix2 p k)) (fun k => wf (ix2 k q)) (bf (ix2 0 q))) (preAct (fun k => x (ix2 p k)) (fun k => h (ix2 p k)) (fun k => wi (ix2 k q)) (bi (ix2 0 q))) (preAct (fun k => x (ix2 p k)) (fun k => h (ix2 p k)) (fun k => wc (ix2 k q)) (bc (ix2 0 q))) (cp (ix2 p q)) := by
  have s : cellTile x h wf wi wc wo we bf bi bc bo be cp (ix2 p q)
      = cellOf (preF x h wf bf (ix2 p q)) (preI x h wi bi (ix2 p q)) (preC x h wc (ix2 p q) + biasC bc (ix2 p q)) (View.ld cp rO (ix2 p q)) := by
    unfold cellTile k0_pay7 cellOf
    rfl
  rw [s, preF_at, preI_at, preC_at, biasC_at, ld_o]
  rfl

/-- Entry (p, q) of the hidden-state tile. -/
theorem hiddenTile_at (x : Vec Ideal S256x1024 .bf16) (h : Vec Ideal S256x2048 .bf16) (wf wi wc wo we : Vec Ideal S3072x512 .bf16) (bf bi bc bo be : Vec Ideal S1x512 .f32) (cp : Vec Ideal S256x512 .f32) (p : Fin 256) (q : Fin 512) :
    hiddenTile x h wf wi wc wo we bf bi bc bo be cp (ix2 p q)
      = hiddenOf (preAct (fun k => x (ix2 p k)) (fun k => h (ix2 p k)) (fun k => wo (ix2 k q)) (bo (ix2 0 q))) (preAct (fun k => x (ix2 p k)) (fun k => h (ix2 p k)) (fun k => we (ix2 k q)) (be (ix2 0 q)))
          (cellOf (preAct (fun k => x (ix2 p k)) (fun k => h (ix2 p k)) (fun k => wf (ix2 k q)) (bf (ix2 0 q))) (preAct (fun k => x (ix2 p k)) (fun k => h (ix2 p k)) (fun k => wi (ix2 k q)) (bi (ix2 0 q))) (preAct (fun k => x (ix2 p k)) (fun k => h (ix2 p k)) (fun k => wc (ix2 k q)) (bc (ix2 0 q))) (cp (ix2 p q))) := by
  have s : hiddenTile x h wf wi wc wo we bf bi bc bo be cp (ix2 p q)
      = hiddenOf (preOf (View.ld x rX) (View.ld h rH) (View.ld wo rW) (View.ld bo rB) (ix2 p q))
          (preOf (View.ld x rX) (View.ld h rH) (View.ld we rW) (View.ld be rB) (ix2 p q)) (cellTile x h wf wi wc wo we bf bi bc bo be cp (ix2 p q)) := by
    unfold hiddenTile k0_pay8 k0_pay1 k0_pay2 hiddenOf preOf cellTile
    rfl
  rw [s, cellTile_at, ld_x, ld_h, ld_w, ld_b, ld_w, ld_b, preOf_at, preOf_at]

end Cert.KernelIdeal.Region

end
-- ==== Proof.KernelArray.lean ====
/-
  From the kernel's blocks to whole arrays, at the ideal instance.
  The grid is 4 hidden tiles by 16 batch tiles. At a point with batch tile a and hidden tile b the x, h and c_prev
  blocks are rows 256a … 256a + 255, gate g's weight and bias blocks are columns 512(4g + b) … of the fused matrix
  and row, and the two outputs' blocks are rows 256a …, columns 512b …. So entry (p, q) of what the point writes back
  is the specification's value at row 256a + p, hidden unit 512b + q; the 64 output blocks tile [4096, 2048], and
  each output array ends as the specification's function of the region-entry arrays. Those are the arguments
  themselves: a change of float format is the identity on extended reals and the bias row is the bias vector.
-/
import proofs.«153560_j61091614819044_2_alg».proof.Proof.IdealLaunch
import proofs.«153560_j61091614819044_2_alg».proof.Proof.KernelTile
import Idealize.ShloMosaic.Lib.StableHlo.Run

set_option maxRecDepth 16384

noncomputable section

namespace Cert.KernelIdeal.Region

open Cert.KernelIdeal Cert.KernelIdeal.Gen Cert.CellSpec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The index maps, decided over the grid -/

/-- The row-tiled windows move with the outputs; the outputs' block indices stay in range. -/
theorem idx_rows : ∀ t : Fin cfg0.N,
    win0_0.index t (0 : Fin 2) = win0_13.index t (0 : Fin 2) ∧ win0_0.index t (1 : Fin 2) = 0
    ∧ win0_1.index t (0 : Fin 2) = win0_13.index t (0 : Fin 2) ∧ win0_1.index t (1 : Fin 2) = 0
    ∧ win0_12.index t (0 : Fin 2) = win0_13.index t (0 : Fin 2) ∧ win0_12.index t (1 : Fin 2) = win0_13.index t (1 : Fin 2)
    ∧ win0_14.index t (0 : Fin 2) = win0_13.index t (0 : Fin 2) ∧ win0_14.index t (1 : Fin 2) = win0_13.index t (1 : Fin 2)
    ∧ win0_13.index t (0 : Fin 2) ≤ 15 ∧ win0_13.index t (1 : Fin 2) ≤ 3 :=
  (by decide +kernel : ∀ t : Fin grid0.N, _)

/-- Gate g's weight block is column block 4g + b of the fused matrix, -/
theorem idx_weights : ∀ t : Fin cfg0.N,
    win0_2.index t (0 : Fin 2) = 0 ∧ win0_2.index t (1 : Fin 2) = 0 + win0_13.index t (1 : Fin 2)
    ∧ win0_3.index t (0 : Fin 2) = 0 ∧ win0_3.index t (1 : Fin 2) = 4 + win0_13.index t (1 : Fin 2)
    ∧ win0_4.index t (0 : Fin 2) = 0 ∧ win0_4.index t (1 : Fin 2) = 8 + win0_13.index t (1 : Fin 2)
    ∧ win0_5.index t (0 : Fin 2) = 0 ∧ win0_5.index t (1 : Fin 2) = 12 + win0_13.index t (1 : Fin 2)
    ∧ win0_6.index t (0 : Fin 2) = 0 ∧ win0_6.index t (1 : Fin 2) = 16 + win0_13.index t (1 : Fin 2) :=
  (by decide +kernel : ∀ t : Fin grid0.N, _)

/-- and its bias block likewise of the bias row. -/
theorem idx_biases : ∀ t : Fin cfg0.N,
    win0_7.index t (0 : Fin 2) = 0 ∧ win0_7.index t (1 : Fin 2) = 0 + win0_13.index t (1 : Fin 2)
    ∧ win0_8.index t (0 : Fin 2) = 0 ∧ win0_8.index t (1 : Fin 2) = 4 + win0_13.index t (1 : Fin 2)
    ∧ win0_9.index t (0 : Fin 2) = 0 ∧ win0_9.index t (1 : Fin 2) = 8 + win0_13.index t (1 : Fin 2)
    ∧ win0_10.index t (0 : Fin 2) = 0 ∧ win0_10.index t (1 : Fin 2) = 12 + win0_13.index t (1 : Fin 2)
    ∧ win0_11.index t (0 : Fin 2) = 0 ∧ win0_11.index t (1 : Fin 2) = 16 + win0_13.index t (1 : Fin 2) :=
  (by decide +kernel : ∀ t : Fin grid0.N, _)

/-- Every (batch tile, hidden tile) pair is some point's. -/
theorem idx_onto : ∀ (a : Fin 16) (b : Fin 4), ∃ t : Fin cfg0.N, win0_13.index t = ![a.val, b.val] ∧ win0_14.index t = ![a.val, b.val] :=
  (by decide +kernel : ∀ (a : Fin 16) (b : Fin 4), ∃ t : Fin grid0.N, win0_13.index t = ![a.val, b.val] ∧ win0_14.index t = ![a.val, b.val])

/-- The batch row of the point's tile row p, -/
def rowAt (t : Fin cfg0.N) (p : Fin 256) : Fin 4096 :=
  ⟨win0_13.index t (0 : Fin 2) * 256 + p.val, by have := (idx_rows t).2.2.2.2.2.2.2.2.1; have := p.isLt; omega⟩
/-- and the hidden unit of its tile column q. -/
def colAt (t : Fin cfg0.N) (q : Fin 512) : Fin 2048 :=
  ⟨win0_13.index t (1 : Fin 2) * 512 + q.val, by have := (idx_rows t).2.2.2.2.2.2.2.2.2; have := q.isLt; omega⟩

/-! ## The region-entry arrays as extended-real functions -/

abbrev Xe (c : Dev nD) : (⟨2, ![4096, 1024]⟩ : Shape).Idx → EReal := entry m c main_v0
abbrev He (c : Dev nD) : (⟨2, ![4096, 2048]⟩ : Shape).Idx → EReal := entry m c main_v1
abbrev Ce (c : Dev nD) : (⟨2, ![4096, 2048]⟩ : Shape).Idx → EReal := entry m c main_arg2
abbrev We (c : Dev nD) : (⟨2, ![3072, 10240]⟩ : Shape).Idx → EReal := entry m c main_v2
abbrev Br (c : Dev nD) : (⟨2, ![1, 10240]⟩ : Shape).Idx → EReal := entry m c main_v3
abbrev Be (c : Dev nD) : (⟨1, ![10240]⟩ : Shape).Idx → EReal := fun i => Br m c (ix2 0 (i 0))

/-! ## The blocks read off the arrays -/

theorem read_x (c : Dev nD) (t : Fin cfg0.N) (p : Fin 256) (k : Fin 1024) :
    blockAt m c 0 t (ix2 p k) = Xe m c (ix2 (rowAt t p) k) := by
  show Xe m c (((cfg0.win 0).blk t).view.emb (ix2 p k)) = Xe m c (ix2 (rowAt t p) k)
  refine congrArg (Xe m c) (funext fun a => Fin.ext ?_)
  obtain ⟨e0, e1, -⟩ := idx_rows t
  match a with
  | ⟨0, _⟩ => show win0_0.index t (0 : Fin 2) * 256 + 1 * p.val = win0_13.index t (0 : Fin 2) * 256 + p.val; omega
  | ⟨1, _⟩ => show win0_0.index t (1 : Fin 2) * 1024 + 1 * k.val = k.val; omega

theorem read_h (c : Dev nD) (t : Fin cfg0.N) (p : Fin 256) (k : Fin 2048) :
    blockAt m c 1 t (ix2 p k) = He m c (ix2 (rowAt t p) k) := by
  show He m c (((cfg0.win 1).blk t).view.emb (ix2 p k)) = He m c (ix2 (rowAt t p) k)
  refine congrArg (He m c) (funext fun a => Fin.ext ?_)
  obtain ⟨-, -, e0, e1, -⟩ := idx_rows t
  match a with
  | ⟨0, _⟩ => show win0_1.index t (0 : Fin 2) * 256 + 1 * p.val = win0_13.index t (0 : Fin 2) * 256 + p.val; omega
  | ⟨1, _⟩ => show win0_1.index t (1 : Fin 2) * 2048 + 1 * k.val = k.val; omega

theorem read_c (c : Dev nD) (t : Fin cfg0.N) (p : Fin 256) (q : Fin 512) :
    blockAt m c 12 t (ix2 p q) = Ce m c (ix2 (rowAt t p) (colAt t q)) := by
  show Ce m c (((cfg0.win 12).blk t).view.emb (ix2 p q)) = Ce m c (ix2 (rowAt t p) (colAt t q))
  refine congrArg (Ce m c) (funext fun a => Fin.ext ?_)
  obtain ⟨-, -, -, -, e0, e1, -⟩ := idx_rows t
  match a with
  | ⟨0, _⟩ => show win0_12.index t (0 : Fin 2) * 256 + 1 * p.val = win0_13.index t (0 : Fin 2) * 256 + p.val; omega
  | ⟨1, _⟩ => show win0_12.index t (1 : Fin 2) * 512 + 1 * q.val = win0_13.index t (1 : Fin 2) * 512 + q.val; omega

theorem read_w0 (c : Dev nD) (t : Fin cfg0.N) (k : Fin 3072) (q : Fin 512) :
    blockAt m c 2 t (ix2 k q) = We m c (ix2 k (gcol 0 (colAt t q))) := by
  show We m c (((cfg0.win 2).blk t).view.emb (ix2 k q)) = We m c (ix2 k (gcol 0 (colAt t q)))
  refine congrArg (We m c) (funext fun a => Fin.ext ?_)
  have e := idx_weights t
  match a with
  | ⟨0, _⟩ => show win0_2.index t (0 : Fin 2) * 3072 + 1 * k.val = k.val; omega
  | ⟨1, _⟩ => show win0_2.index t (1 : Fin 2) * 512 + 1 * q.val = 2048 * 0 + (win0_13.index t (1 : Fin 2) * 512 + q.val); omega

theorem read_b0 (c : Dev nD) (t : Fin cfg0.N) (q : Fin 512) :
    blockAt m c 7 t (ix2 0 q) = Be m c (ix1 (gcol 0 (colAt t q))) := by
  show Br m c (((cfg0.win 7).blk t).view.emb (ix2 0 q)) = Br m c (ix2 0 (gcol 0 (colAt t q)))
  refine congrArg (Br m c) (funext fun a => Fin.ext ?_)
  have e := idx_biases t
  match a with
  | ⟨0, _⟩ => show win0_7.index t (0 : Fin 2) * 1 + 1 * 0 = 0; omega
  | ⟨1, _⟩ => show win0_7.index t (1 : Fin 2) * 512 + 1 * q.val = 2048 * 0 + (win0_13.index t (1 : Fin 2) * 512 + q.val); omega

/-- Gate 0's pre-activation from the point's blocks is the specification's at the tile's row and column. -/
theorem gate0_of_blocks (c : Dev nD) (t : Fin cfg0.N) (p : Fin 256) (q : Fin 512) :
    preAct (fun k => blockAt m c 0 t (ix2 p k)) (fun k => blockAt m c 1 t (ix2 p k)) (fun k => blockAt m c 2 t (ix2 k q))
        (blockAt m c 7 t (ix2 0 q))
      = gatePre (Xe m c) (He m c) (We m c) (Be m c) 0 (rowAt t p) (colAt t q) :=
  preAct_congr (fun k => read_x m c t p k) (fun k => read_h m c t p k) (fun k => read_w0 m c t k q) (read_b0 m c t q)

theorem read_w1 (c : Dev nD) (t : Fin cfg0.N) (k : Fin 3072) (q : Fin 512) :
    blockAt m c 3 t (ix2 k q) = We m c (ix2 k (gcol 1 (colAt t q))) := by
  show We m c (((cfg0.win 3).blk t).view.emb (ix2 k q)) = We m c (ix2 k (gcol 1 (colAt t q)))
  refine congrArg (We m c) (funext fun a => Fin.ext ?_)
  have e := idx_weights t
  match a with
  | ⟨0, _⟩ => show win0_3.index t (0 : Fin 2) * 3072 + 1 * k.val = k.val; omega
  | ⟨1, _⟩ => show win0_3.index t (1 : Fin 2) * 512 + 1 * q.val = 2048 * 1 + (win0_13.index t (1 : Fin 2) * 512 + q.val); omega

theorem read_b1 (c : Dev nD) (t : Fin cfg0.N) (q : Fin 512) :
    blockAt m c 8 t (ix2 0 q) = Be m c (ix1 (gcol 1 (colAt t q))) := by
  show Br m c (((cfg0.win 8).blk t).view.emb (ix2 0 q)) = Br m c (ix2 0 (gcol 1 (colAt t q)))
  refine congrArg (Br m c) (funext fun a => Fin.ext ?_)
  have e := idx_biases t
  match a with
  | ⟨0, _⟩ => show win0_8.index t (0 : Fin 2) * 1 + 1 * 0 = 0; omega
  | ⟨1, _⟩ => show win0_8.index t (1 : Fin 2) * 512 + 1 * q.val = 2048 * 1 + (win0_13.index t (1 : Fin 2) * 512 + q.val); omega

/-- Gate 1's pre-activation from the point's blocks is the specification's at the tile's row and column. -/
theorem gate1_of_blocks (c : Dev nD) (t : Fin cfg0.N) (p : Fin 256) (q : Fin 512) :
    preAct (fun k => blockAt m c 0 t (ix2 p k)) (fun k => blockAt m c 1 t (ix2 p k)) (fun k => blockAt m c 3 t (ix2 k q))
        (blockAt m c 8 t (ix2 0 q))
      = gatePre (Xe m c) (He m c) (We m c) (Be m c) 1 (rowAt t p) (colAt t q) :=
  preAct_congr (fun k => read_x m c t p k) (fun k => read_h m c t p k) (fun k => read_w1 m c t k q) (read_b1 m c t q)

theorem read_w2 (c : Dev nD) (t : Fin cfg0.N) (k : Fin 3072) (q : Fin 512) :
    blockAt m c 4 t (ix2 k q) = We m c (ix2 k (gcol 2 (colAt t q))) := by
  show We m c (((cfg0.win 4).blk t).view.emb (ix2 k q)) = We m c (ix2 k (gcol 2 (colAt t q)))
  refine congrArg (We m c) (funext fun a => Fin.ext ?_)
  have e := idx_weights t
  match a with
  | ⟨0, _⟩ => show win0_4.index t (0 : Fin 2) * 3072 + 1 * k.val = k.val; omega
  | ⟨1, _⟩ => show win0_4.index t (1 : Fin 2) * 512 + 1 * q.val = 2048 * 2 + (win0_13.index t (1 : Fin 2) * 512 + q.val); omega

theorem read_b2 (c : Dev nD) (t : Fin cfg0.N) (q : Fin 512) :
    blockAt m c 9 t (ix2 0 q) = Be m c (ix1 (gcol 2 (colAt t q))) := by
  show Br m c (((cfg0.win 9).blk t).view.emb (ix2 0 q)) = Br m c (ix2 0 (gcol 2 (colAt t q)))
  refine congrArg (Br m c) (funext fun a => Fin.ext ?_)
  have e := idx_biases t
  match a with
  | ⟨0, _⟩ => show win0_9.index t (0 : Fin 2) * 1 + 1 * 0 = 0; omega
  | ⟨1, _⟩ => show win0_9.index t (1 : Fin 2) * 512 + 1 * q.val = 2048 * 2 + (win0_13.index t (1 : Fin 2) * 512 + q.val); omega

/-- Gate 2's pre-activation from the point's blocks is the specification's at the tile's row and column. -/
theorem gate2_of_blocks (c : Dev nD) (t : Fin cfg0.N) (p : Fin 256) (q : Fin 512) :
    preAct (fun k => blockAt m c 0 t (ix2 p k)) (fun k => blockAt m c 1 t (ix2 p k)) (fun k => blockAt m c 4 t (ix2 k q))
        (blockAt m c 9 t (ix2 0 q))
      = gatePre (Xe m c) (He m c) (We m c) (Be m c) 2 (rowAt t p) (colAt t q) :=
  preAct_congr (fun k => read_x m c t p k) (fun k => read_h m c t p k) (fun k => read_w2 m c t k q) (read_b2 m c t q)

theorem read_w3 (c : Dev nD) (t : Fin cfg0.N) (k : Fin 3072) (q : Fin 512) :
    blockAt m c 5 t (ix2 k q) = We m c (ix2 k (gcol 3 (colAt t q))) := by
  show We m c (((cfg0.win 5).blk t).view.emb (ix2 k q)) = We m c (ix2 k (gcol 3 (colAt t q)))
  refine congrArg (We m c) (funext fun a => Fin.ext ?_)
  have e := idx_weights t
  match a with
  | ⟨0, _⟩ => show win0_5.index t (0 : Fin 2) * 3072 + 1 * k.val = k.val; omega
  | ⟨1, _⟩ => show win0_5.index t (1 : Fin 2) * 512 + 1 * q.val = 2048 * 3 + (win0_13.index t (1 : Fin 2) * 512 + q.val); omega

theorem read_b3 (c : Dev nD) (t : Fin cfg0.N) (q : Fin 512) :
    blockAt m c 10 t (ix2 0 q) = Be m c (ix1 (gcol 3 (colAt t q))) := by
  show Br m c (((cfg0.win 10).blk t).view.emb (ix2 0 q)) = Br m c (ix2 0 (gcol 3 (colAt t q)))
  refine congrArg (Br m c) (funext fun a => Fin.ext ?_)
  have e := idx_biases t
  match a with
  | ⟨0, _⟩ => show win0_10.index t (0 : Fin 2) * 1 + 1 * 0 = 0; omega
  | ⟨1, _⟩ => show win0_10.index t (1 : Fin 2) * 512 + 1 * q.val = 2048 * 3 + (win0_13.index t (1 : Fin 2) * 512 + q.val); omega

/-- Gate 3's pre-activation from the point's blocks is the specification's at the tile's row and column. -/
theorem gate3_of_blocks (c : Dev nD) (t : Fin cfg0.N) (p : Fin 256) (q : Fin 512) :
    preAct (fun k => blockAt m c 0 t (ix2 p k)) (fun k => blockAt m c 1 t (ix2 p k)) (fun k => blockAt m c 5 t (ix2 k q))
        (blockAt m c 10 t (ix2 0 q))
      = gatePre (Xe m c) (He m c) (We m c) (Be m c) 3 (rowAt t p) (colAt t q) :=
  preAct_congr (fun k => read_x m c t p k) (fun k => read_h m c t p k) (fun k => read_w3 m c t k q) (read_b3 m c t q)

theorem read_w4 (c : Dev nD) (t : Fin cfg0.N) (k : Fin 3072) (q : Fin 512) :
    blockAt m c 6 t (ix2 k q) = We m c (ix2 k (gcol 4 (colAt t q))) := by
  show We m c (((cfg0.win 6).blk t).view.emb (ix2 k q)) = We m c (ix2 k (gcol 4 (colAt t q)))
  refine congrArg (We m c) (funext fun a => Fin.ext ?_)
  have e := idx_weights t
  match a with
  | ⟨0, _⟩ => show win0_6.index t (0 : Fin 2) * 3072 + 1 * k.val = k.val; omega
  | ⟨1, _⟩ => show win0_6.index t (1 : Fin 2) * 512 + 1 * q.val = 2048 * 4 + (win0_13.index t (1 : Fin 2) * 512 + q.val); omega

theorem read_b4 (c : Dev nD) (t : Fin cfg0.N) (q : Fin 512) :
    blockAt m c 11 t (ix2 0 q) = Be m c (ix1 (gcol 4 (colAt t q))) := by
  show Br m c (((cfg0.win 11).blk t).view.emb (ix2 0 q)) = Br m c (ix2 0 (gcol 4 (colAt t q)))
  refine congrArg (Br m c) (funext fun a => Fin.ext ?_)
  have e := idx_biases t
  match a with
  | ⟨0, _⟩ => show win0_11.index t (0 : Fin 2) * 1 + 1 * 0 = 0; omega
  | ⟨1, _⟩ => show win0_11.index t (1 : Fin 2) * 512 + 1 * q.val = 2048 * 4 + (win0_13.index t (1 : Fin 2) * 512 + q.val); omega

/-- Gate 4's pre-activation from the point's blocks is the specification's at the tile's row and column. -/
theorem gate4_of_blocks (c : Dev nD) (t : Fin cfg0.N) (p : Fin 256) (q : Fin 512) :
    preAct (fun k => blockAt m c 0 t (ix2 p k)) (fun k => blockAt m c 1 t (ix2 p k)) (fun k => blockAt m c 6 t (ix2 k q))
        (blockAt m c 11 t (ix2 0 q))
      = gatePre (Xe m c) (He m c) (We m c) (Be m c) 4 (rowAt t p) (colAt t q) :=
  preAct_congr (fun k => read_x m c t p k) (fun k => read_h m c t p k) (fun k => read_w4 m c t k q) (read_b4 m c t q)

/-- The output block's entry (p, q) sits at the tile's row and column. -/
theorem out_emb (t : Fin cfg0.N) (p : Fin 256) (q : Fin 512) :
    ((cfg0.win 13).blk t).view.emb (ix2 p q) = ix2 (rowAt t p) (colAt t q) :=
  funext fun a => Fin.ext (by
    match a with
    | ⟨0, _⟩ => show win0_13.index t (0 : Fin 2) * 256 + 1 * p.val = win0_13.index t (0 : Fin 2) * 256 + p.val; omega
    | ⟨1, _⟩ => show win0_13.index t (1 : Fin 2) * 512 + 1 * q.val = win0_13.index t (1 : Fin 2) * 512 + q.val; omega)

theorem out_emb' (t : Fin cfg0.N) (p : Fin 256) (q : Fin 512) :
    ((cfg0.win 14).blk t).view.emb (ix2 p q) = ix2 (rowAt t p) (colAt t q) :=
  funext fun a => Fin.ext (by
    obtain ⟨-, -, -, -, -, -, e0, e1, -⟩ := idx_rows t
    match a with
    | ⟨0, _⟩ => show win0_14.index t (0 : Fin 2) * 256 + 1 * p.val = win0_13.index t (0 : Fin 2) * 256 + p.val; omega
    | ⟨1, _⟩ => show win0_14.index t (1 : Fin 2) * 512 + 1 * q.val = win0_13.index t (1 : Fin 2) * 512 + q.val; omega)

/-! ## What each point writes back -/

/-- The hidden state's block at point `t` is block `t` of the specification's hidden state. -/
theorem hidden_flushed (c : Dev nD) (t : Fin cfg0.N) :
    (dats m 0 c).flushed 13 t
      = ((cfg0.win 13).blk t).view.read (Elt Ideal) (hiddenG (Xe m c) (He m c) (Ce m c) (We m c) (Be m c)) := by
  show (cfg0.win 13).cut (grid0.coords t) ((dats m 0 c).after 13 t) = _
  rw [after_hidden]
  unfold hiddenBuf
  rw [View.canon_unit_zero (Val := Elt Ideal) zero_off]
  funext j
  obtain ⟨p, q, rfl⟩ : ∃ (p : Fin 256) (q : Fin 512), j = ix2 p q := ⟨j 0, j 1, eq_ix2 j⟩
  show hiddenTile (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (ix2 p q)
    = hiddenG (Xe m c) (He m c) (Ce m c) (We m c) (Be m c) (((cfg0.win 13).blk t).view.emb (ix2 p q))
  refine (hiddenTile_at (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) p q).trans ?_
  rw [gate0_of_blocks, gate1_of_blocks, gate2_of_blocks, gate3_of_blocks, gate4_of_blocks, read_c, out_emb]
  rfl

/-- The cell state's block at point `t` is block `t` of the specification's cell state. -/
theorem cell_flushed (c : Dev nD) (t : Fin cfg0.N) :
    (dats m 0 c).flushed 14 t
      = ((cfg0.win 14).blk t).view.read (Elt Ideal) (cellG (Xe m c) (He m c) (Ce m c) (We m c) (Be m c)) := by
  show (cfg0.win 14).cut (grid0.coords t) ((dats m 0 c).after 14 t) = _
  rw [after_cell]
  unfold cellBuf
  rw [View.canon_unit_zero (Val := Elt Ideal) zero_off]
  funext j
  obtain ⟨p, q, rfl⟩ : ∃ (p : Fin 256) (q : Fin 512), j = ix2 p q := ⟨j 0, j 1, eq_ix2 j⟩
  show cellTile (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) (ix2 p q)
    = cellG (Xe m c) (He m c) (Ce m c) (We m c) (Be m c) (((cfg0.win 14).blk t).view.emb (ix2 p q))
  refine (cellTile_at (blockAt m c 0 t) (blockAt m c 1 t) (blockAt m c 2 t) (blockAt m c 3 t) (blockAt m c 4 t) (blockAt m c 5 t) (blockAt m c 6 t) (blockAt m c 7 t) (blockAt m c 8 t) (blockAt m c 9 t) (blockAt m c 10 t) (blockAt m c 11 t) (blockAt m c 12 t) p q).trans ?_
  rw [gate0_of_blocks, gate1_of_blocks, gate2_of_blocks, read_c, out_emb']
  rfl

/-! ## The 64 output blocks tile the arrays -/

theorem mem_hidden_blk (t : Fin cfg0.N) (i : S4096x2048.Idx) :
    i ∈ ((cfg0.win 13).blk t).view.set ↔ ∀ a : Fin 2, win0_13.index t a * S256x512.size a ≤ (i a).val
      ∧ (i a).val < win0_13.index t a * S256x512.size a + S256x512.size a := by
  show i ∈ ((View.whole main_v4_0).slice (win0_13.rect t)).set ↔ _
  rw [View.set_slice_whole, Rect.mem_set_unit]
  exact Iff.rfl

theorem mem_cell_blk (t : Fin cfg0.N) (i : S4096x2048.Idx) :
    i ∈ ((cfg0.win 14).blk t).view.set ↔ ∀ a : Fin 2, win0_14.index t a * S256x512.size a ≤ (i a).val
      ∧ (i a).val < win0_14.index t a * S256x512.size a + S256x512.size a := by
  show i ∈ ((View.whole main_v4_1).slice (win0_14.rect t)).set ↔ _
  rw [View.set_slice_whole, Rect.mem_set_unit]
  exact Iff.rfl

theorem hidden_covered (i : S4096x2048.Idx) :
    ∃ t : Fin cfg0.N, (cfg0.win 13).flush t = true ∧ i ∈ ((cfg0.win 13).blk t).view.set := by
  have hi0 : (i 0).val < 4096 := (i 0).isLt
  have hi1 : (i 1).val < 2048 := (i 1).isLt
  obtain ⟨t, ht, -⟩ := idx_onto ⟨(i 0).val / 256, by omega⟩ ⟨(i 1).val / 512, by omega⟩
  have q0 : win0_13.index t (0 : Fin 2) = (i 0).val / 256 := congrFun ht 0
  have q1 : win0_13.index t (1 : Fin 2) = (i 1).val / 512 := congrFun ht 1
  refine ⟨t, flush0_13 t, ?_⟩
  rw [mem_hidden_blk]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 512 ≤ (i 1).val ∧ (i 1).val < win0_13.index t (1 : Fin 2) * 512 + 512; omega

theorem cell_covered (i : S4096x2048.Idx) :
    ∃ t : Fin cfg0.N, (cfg0.win 14).flush t = true ∧ i ∈ ((cfg0.win 14).blk t).view.set := by
  have hi0 : (i 0).val < 4096 := (i 0).isLt
  have hi1 : (i 1).val < 2048 := (i 1).isLt
  obtain ⟨t, -, ht⟩ := idx_onto ⟨(i 0).val / 256, by omega⟩ ⟨(i 1).val / 512, by omega⟩
  have q0 : win0_14.index t (0 : Fin 2) = (i 0).val / 256 := congrFun ht 0
  have q1 : win0_14.index t (1 : Fin 2) = (i 1).val / 512 := congrFun ht 1
  refine ⟨t, flush0_14 t, ?_⟩
  rw [mem_cell_blk]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 512 ≤ (i 1).val ∧ (i 1).val < win0_14.index t (1 : Fin 2) * 512 + 512; omega

/-- The hidden state's array after the run, -/
theorem hidden_final (c : Dev nD) :
    (dats m 0 c).arrAt 13 cfg0.N = hiddenG (Xe m c) (He m c) (Ce m c) (We m c) (Be m c) :=
  (dats m 0 c).arrAt_eq_of_cover 13 _ (fun t _ => hidden_flushed m c t) hidden_covered

/-- and the cell state's. -/
theorem cell_final (c : Dev nD) :
    (dats m 0 c).arrAt 14 cfg0.N = cellG (Xe m c) (He m c) (Ce m c) (We m c) (Be m c) :=
  (dats m 0 c).arrAt_eq_of_cover 14 _ (fun t _ => cell_flushed m c t) cell_covered

end Cert.KernelIdeal.Region

end
-- ==== Proof.KernelValue.lean ====
/-
  The idealized kernel's run with its results named. The region finds x, h_prev and W in the narrow float format and
  the bias as a row; on extended reals the change of format is the identity and the row's entry j is the vector's
  entry j, so the arrays the blocks were read off are the arguments themselves, and the two results end as the
  specification's hidden and cell states of the five arguments, which end unchanged.
-/
import proofs.«153560_j61091614819044_2_alg».proof.Proof.KernelArray

set_option maxRecDepth 16384

noncomputable section

namespace Cert.KernelIdeal.Region

open Cert.KernelIdeal Cert.KernelIdeal.Gen Cert.CellSpec
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

theorem Xe_eq (c : Dev nD) : Xe m c = (m ((c : Thread nD τ).loc main_arg0) : (⟨2, ![4096, 1024]⟩ : Shape).Idx → EReal) := by
  show (entry m c main_v0 : S4096x1024.Idx → EReal) = _
  dsimp only [entry, hostOps0]
  after_results
  rfl

theorem He_eq (c : Dev nD) : He m c = (m ((c : Thread nD τ).loc main_arg1) : (⟨2, ![4096, 2048]⟩ : Shape).Idx → EReal) := by
  show (entry m c main_v1 : S4096x2048.Idx → EReal) = _
  dsimp only [entry, hostOps0]
  after_results
  rfl

theorem Ce_eq (c : Dev nD) : Ce m c = (m ((c : Thread nD τ).loc main_arg2) : (⟨2, ![4096, 2048]⟩ : Shape).Idx → EReal) := entry_arg2 m c

theorem We_eq (c : Dev nD) : We m c = (m ((c : Thread nD τ).loc main_arg3) : (⟨2, ![3072, 10240]⟩ : Shape).Idx → EReal) := by
  show (entry m c main_v2 : S3072x10240.Idx → EReal) = _
  dsimp only [entry, hostOps0]
  after_results
  rfl

/-- The bias row is the bias vector laid out as one row. -/
theorem Br_eq (c : Dev nD) :
    Br m c = shapeCast S1x10240 (m ((c : Thread nD τ).loc main_arg4) : (⟨1, ![10240]⟩ : Shape).Idx → EReal) shapeCasts_S10240_S1x10240 := by
  show (entry m c main_v3 : S1x10240.Idx → EReal) = _
  dsimp only [entry, hostOps0]
  after_results
  rfl

theorem Be_eq (c : Dev nD) : Be m c = (m ((c : Thread nD τ).loc main_arg4) : (⟨1, ![10240]⟩ : Shape).Idx → EReal) := by
  funext i
  show Br m c (ix2 0 (i 0)) = _
  rw [Br_eq]
  refine shapeCast_apply _ shapeCasts_S10240_S1x10240 (ix2 0 (i 0)) i ?_
  rw [Shape.rowMajor_val_one, Shape.rowMajor_val_two]
  show (i 0).val = 0 * 10240 + (i 0).val
  omega

/-- THE RUN WITH VALUES: every weakly fair execution of the idealized kernel terminates with the two results at the
    specification's hidden and cell states of the arguments, and the arguments unchanged. -/
theorem run_value : θ_run defs (onTc (τ := τ) (main (F := Ideal))) ⟨m, fun _ => 0, ρ⟩ (fun r => ∀ c : Dev nD,
      r.2.mem ((c.tc : Thread nD τ).loc main_v4_0) = hiddenG (m ((c : Thread nD τ).loc main_arg0) : (⟨2, ![4096, 1024]⟩ : Shape).Idx → EReal) (m ((c : Thread nD τ).loc main_arg1) : (⟨2, ![4096, 2048]⟩ : Shape).Idx → EReal) (m ((c : Thread nD τ).loc main_arg2) : (⟨2, ![4096, 2048]⟩ : Shape).Idx → EReal) (m ((c : Thread nD τ).loc main_arg3) : (⟨2, ![3072, 10240]⟩ : Shape).Idx → EReal) (m ((c : Thread nD τ).loc main_arg4) : (⟨1, ![10240]⟩ : Shape).Idx → EReal)
      ∧ r.2.mem ((c.tc : Thread nD τ).loc main_v4_1) = cellG (m ((c : Thread nD τ).loc main_arg0) : (⟨2, ![4096, 1024]⟩ : Shape).Idx → EReal) (m ((c : Thread nD τ).loc main_arg1) : (⟨2, ![4096, 2048]⟩ : Shape).Idx → EReal) (m ((c : Thread nD τ).loc main_arg2) : (⟨2, ![4096, 2048]⟩ : Shape).Idx → EReal) (m ((c : Thread nD τ).loc main_arg3) : (⟨2, ![3072, 10240]⟩ : Shape).Idx → EReal) (m ((c : Thread nD τ).loc main_arg4) : (⟨1, ![10240]⟩ : Shape).Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 13).trans ((hidden_final m c).trans (by rw [Xe_eq, He_eq, Ce_eq, We_eq, Be_eq])),
     ((h c).1 14).trans ((cell_final m c).trans (by rw [Xe_eq, He_eq, Ce_eq, We_eq, Be_eq])),
     ((h c).2 main_arg0 (Pipeline.mem_restRefs_of main_arg0 (by decide) (by decide))).trans (entry_arg0 m c),
     ((h c).2 main_arg1 (Pipeline.mem_restRefs_of main_arg1 (by decide) (by decide))).trans (entry_arg1 m c),
     ((h c).1 12).trans (((dats m 0 c).arrAt_in 12 rfl _).trans ((dats_A m c 12).trans (entry_arg2 m c))),
     ((h c).2 main_arg3 (Pipeline.mem_restRefs_of main_arg3 (by decide) (by decide))).trans (entry_arg3 m c),
     ((h c).2 main_arg4 (Pipeline.mem_restRefs_of main_arg4 (by decide) (by decide))).trans (entry_arg4 m c)⟩) (run_main m ρ)

end Cert.KernelIdeal.Region

end
-- ==== Proof.RefValue.lean ====
/-
  The reference program's two results, read one operation at a time, are the specification's functions of its five
  arguments. The reference joins x and h along their columns and contracts the joined row against a column of W in
  one sum over 3072; the joined row is x left of column 1024 and h from there on, so by the split of that sum the
  fused pre-activation's gate-g slice is the specification's `gatePre`. Its sigmoid is spelt 1 / (1 + exp(−z)), which
  is the ideal instance's logistic once the float 1.0 is read as the number one; the rest of the chain is the same
  sequence of operations.
-/
import proofs.«153560_j61091614819044_2_alg».proof.Proof.Gen.ReferenceIdeal.Read
import proofs.«153560_j61091614819044_2_alg».proof.Proof.CellSpec
import Idealize.ShloMosaic.PureOps.IdealRules

set_option maxRecDepth 16384

noncomputable section

namespace Cert.ReferenceIdeal.RefValue

open Cert.ReferenceIdeal Cert.ReferenceIdeal.Gen Cert.ReferenceIdeal.Read Cert.CellSpec
open Idealize.ShloMosaic Idealize.ShloMosaic.ValueIdx
open scoped BigOperators

/-- The float 1.0 is the number one. -/
theorem one_f32 : Ideal.ofBits .f32 0x3F800000#32 = 1 := IdealRules.sign_bit.ideal_onePat .f32

/-- The reference's sigmoid is the logistic function. -/
theorem sigmoid_eq (z : EReal) :
    Ideal.div (Ideal.ofBits .f32 0x3F800000#32) (Ideal.ofBits .f32 0x3F800000#32 + Ideal.exp (-z)) = Ideal.logistic z := by
  rw [one_f32]; rfl

/-! ## The joined row -/

/-- Left of column 1024 the joined array is x, -/
theorem joined_left (x0 : (⟨S4096x1024, .f32⟩ : BufTy).Contents (Elt Ideal)) (x1 : (⟨S4096x2048, .f32⟩ : BufTy).Contents (Elt Ideal))
    (r : Fin 4096) (k : Fin 1024) : val_main_v0 (F := Ideal) x0 x1 (ix2 r (topRow k)) = x0 (ix2 r k) := by
  unfold val_main_v0
  exact concatenate_pair_apply_left (1 : Fin S4096x3072.rank) x0 x1 concatenates_S4096x1024_S4096x2048_S4096x3072_d1
    (ix2 r (topRow k)) rfl (ix2 r k) (fun b => by match b with | ⟨0, _⟩ => rfl | ⟨1, _⟩ => rfl)

/-- and from column 1024 on it is h. -/
theorem joined_right (x0 : (⟨S4096x1024, .f32⟩ : BufTy).Contents (Elt Ideal)) (x1 : (⟨S4096x2048, .f32⟩ : BufTy).Contents (Elt Ideal))
    (r : Fin 4096) (k : Fin 2048) : val_main_v0 (F := Ideal) x0 x1 (ix2 r (lowRow k)) = x1 (ix2 r k) := by
  unfold val_main_v0
  exact concatenate_pair_apply_right (1 : Fin S4096x3072.rank) x0 x1 concatenates_S4096x1024_S4096x2048_S4096x3072_d1
    (ix2 r (lowRow k)) rfl rfl (ix2 r k)
    (fun b hb => by match b with | ⟨0, _⟩ => rfl | ⟨1, _⟩ => exact absurd rfl hb)
    (by show k.val + 1024 = 1024 + k.val; omega)

/-! ## The fused pre-activation -/

/-- The fused pre-activation at row r, column 2048·g + j is gate g's pre-activation at (r, j). -/
theorem fused_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (g : Fin 5) (i : S4096x2048.Idx) (j : S4096x10240.Idx)
    (hj0 : (j 0).val = (i 0).val) (hj1 : (j 1).val = 2048 * g.val + (i 1).val) :
    val_main_v4 (F := Ideal) x0 x1 x3 x4 j = gatePre x0 x1 x3 x4 g (i 0) (i 1) := by
  rw [val_main_v4_apply, val_main_v1_apply, val_main_v3_apply, val_main_v2_apply]
  have el : ∀ k, lidx_main_v1 j k = ix2 (i 0) k := fun k => funext fun a => Fin.ext (by
    match a with | ⟨0, _⟩ => exact hj0 | ⟨1, _⟩ => rfl)
  have er : ∀ k, ridx_main_v1 j k = ix2 k (gcol g (i 1)) := fun k => funext fun a => Fin.ext (by
    match a with | ⟨0, _⟩ => rfl | ⟨1, _⟩ => exact hj1)
  have eb : idx_main_v2 (idx_main_v3 j) = ix1 (gcol g (i 1)) := funext fun a => Fin.ext (by
    match a with | ⟨0, _⟩ => exact hj1)
  simp only [el, er, eb]
  exact preAct_eq_joined (fun k => x0 (ix2 (i 0) k)) (fun k => x1 (ix2 (i 0) k)) (fun k => x3 (ix2 k (gcol g (i 1))))
    (x4 (ix1 (gcol g (i 1)))) (fun k => val_main_v0 (F := Ideal) x0 x1 (ix2 (i 0) k))
    (fun k => joined_left x0 x1 (i 0) k) (fun k => joined_right x0 x1 (i 0) k)

theorem slice0_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v5 (F := Ideal) x0 x1 x3 x4 i = gatePre x0 x1 x3 x4 0 (i 0) (i 1) := by
  rw [val_main_v5_apply]
  exact fused_at x0 x1 x3 x4 0 i (idx_main_v5 i) rfl (by show (i 1).val = 2048 * 0 + (i 1).val; omega)
theorem slice1_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v6 (F := Ideal) x0 x1 x3 x4 i = gatePre x0 x1 x3 x4 1 (i 0) (i 1) := by
  rw [val_main_v6_apply]
  exact fused_at x0 x1 x3 x4 1 i (idx_main_v6 i) rfl (by show 2048 + (i 1).val = 2048 * 1 + (i 1).val; omega)
theorem slice2_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v7 (F := Ideal) x0 x1 x3 x4 i = gatePre x0 x1 x3 x4 2 (i 0) (i 1) := by
  rw [val_main_v7_apply]
  exact fused_at x0 x1 x3 x4 2 i (idx_main_v7 i) rfl (by show 4096 + (i 1).val = 2048 * 2 + (i 1).val; omega)
theorem slice3_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v8 (F := Ideal) x0 x1 x3 x4 i = gatePre x0 x1 x3 x4 3 (i 0) (i 1) := by
  rw [val_main_v8_apply]
  exact fused_at x0 x1 x3 x4 3 i (idx_main_v8 i) rfl (by show 6144 + (i 1).val = 2048 * 3 + (i 1).val; omega)
theorem slice4_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v9 (F := Ideal) x0 x1 x3 x4 i = gatePre x0 x1 x3 x4 4 (i 0) (i 1) := by
  rw [val_main_v9_apply]
  exact fused_at x0 x1 x3 x4 4 i (idx_main_v9 i) rfl (by show 8192 + (i 1).val = 2048 * 4 + (i 1).val; omega)

/-! ## The four sigmoids -/

theorem sigmoid0_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v15 (F := Ideal) x0 x1 x3 x4 i = Ideal.logistic (gatePre x0 x1 x3 x4 0 (i 0) (i 1)) := by
  rw [val_main_v15_apply, val_main_v14_apply, val_main_cst_0_apply, val_main_v13_apply, val_main_v12_apply,
    val_main_cst_apply, val_main_v11_apply, val_main_v10_apply, slice0_at]
  exact sigmoid_eq _
theorem sigmoid1_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v21 (F := Ideal) x0 x1 x3 x4 i = Ideal.logistic (gatePre x0 x1 x3 x4 1 (i 0) (i 1)) := by
  rw [val_main_v21_apply, val_main_v20_apply, val_main_cst_2_apply, val_main_v19_apply, val_main_v18_apply,
    val_main_cst_1_apply, val_main_v17_apply, val_main_v16_apply, slice1_at]
  exact sigmoid_eq _
theorem sigmoid3_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v28 (F := Ideal) x0 x1 x3 x4 i = Ideal.logistic (gatePre x0 x1 x3 x4 3 (i 0) (i 1)) := by
  rw [val_main_v28_apply, val_main_v27_apply, val_main_cst_4_apply, val_main_v26_apply, val_main_v25_apply,
    val_main_cst_3_apply, val_main_v24_apply, val_main_v23_apply, slice3_at]
  exact sigmoid_eq _
theorem sigmoid4_at (x0 : (⟨S4096x1024, .f32⟩ : BufTy).Contents (Elt Ideal)) (x1 : (⟨S4096x2048, .f32⟩ : BufTy).Contents (Elt Ideal)) (x3 : (⟨S3072x10240, .f32⟩ : BufTy).Contents (Elt Ideal)) (x4 : (⟨S10240, .f32⟩ : BufTy).Contents (Elt Ideal)) (i : S4096x2048.Idx) :
    val_main_v34 (F := Ideal) x0 x1 x3 x4 i = Ideal.logistic (gatePre x0 x1 x3 x4 4 (i 0) (i 1)) := by
  rw [val_main_v34_apply, val_main_v33_apply, val_main_cst_6_apply, val_main_v32_apply, val_main_v31_apply,
    val_main_cst_5_apply, val_main_v30_apply, val_main_v29_apply, slice4_at]
  exact sigmoid_eq _

/-! ## The two results -/

/-- The reference's new cell state is the specification's. -/
theorem cell_eq (x0 : (⟨S4096x1024, .f32⟩ : BufTy).Contents (Elt Ideal)) (x1 x2 : (⟨S4096x2048, .f32⟩ : BufTy).Contents (Elt Ideal)) (x3 : (⟨S3072x10240, .f32⟩ : BufTy).Contents (Elt Ideal)) (x4 : (⟨S10240, .f32⟩ : BufTy).Contents (Elt Ideal)) : val_main_v37 (F := Ideal) x0 x1 x2 x3 x4 = cellG x0 x1 x2 x3 x4 := by
  funext i
  rw [val_main_v37_apply, val_main_v35_apply, val_main_v36_apply, val_main_v22_apply, sigmoid0_at, sigmoid1_at, slice2_at]
  rfl

/-- The reference's new hidden state is the specification's. -/
theorem hidden_eq (x0 : (⟨S4096x1024, .f32⟩ : BufTy).Contents (Elt Ideal)) (x1 x2 : (⟨S4096x2048, .f32⟩ : BufTy).Contents (Elt Ideal)) (x3 : (⟨S3072x10240, .f32⟩ : BufTy).Contents (Elt Ideal)) (x4 : (⟨S10240, .f32⟩ : BufTy).Contents (Elt Ideal)) : val_main_v45 (F := Ideal) x0 x1 x2 x3 x4 = hiddenG x0 x1 x2 x3 x4 := by
  funext i
  rw [val_main_v45_apply, val_main_v41_apply, val_main_v44_apply, val_main_v43_apply, val_main_v42_apply, val_main_cst_7_apply,
    val_main_v40_apply, val_main_v39_apply, val_main_v38_apply, sigmoid3_at, sigmoid4_at, cell_eq]
  rfl

end Cert.ReferenceIdeal.RefValue

end
-- ==== Proof.lean ====
/-
  The cell kernel against its reference: the five claims.

  Both programs compute, for batch row r and hidden unit j, the five gate pre-activations
      z_g(r, j) = Σ_k [x | h][r, k] · W[k, 2048·g + j] + b[2048·g + j],
  the new cell state  c' = σ(z_f) · c + σ(z_i) · tanh(z_c)  and the new hidden state
      h' = σ(z_e) · exp(u) + (1 − σ(z_e)) · u,   u = σ(z_o) · tanh(c').
  The kernel tiles the batch by 256 and the hidden axis by 512, reads the weight matrix and the bias through five
  windows each (one per gate), and forms z_g as the sum over x's 1024 columns plus the sum over h's 2048 columns; the
  reference contracts the joined row in one sum over 3072. At the ideal instance every float is an extended real,
  the changes of format are the identity, and the two sums agree because a finite sum splits at any index; nothing in
  the argument needs the inputs to be finite, so the precondition is not opened.

  The three frames: each kernel program's run is the library's launch of its one region over proof data naming what
  every window's buffer holds after the body at every grid point (the weight matrix and the bias row dealt to their
  five windows in five shares); the reference's run is its generated run with the results dropped. The ideal pass
  rewrote nothing, so the fourth claim is trivial. For the fifth, the kernel's two result arrays end as the
  specification's functions of the arguments (the 64 output blocks tile [4096, 2048]), and the reference's two results
  are the same functions read one operation at a time.
-/
import proofs.«153560_j61091614819044_2_alg».proof.Defs
import proofs.«153560_j61091614819044_2_alg».proof.Proof.Gen.Kernel
import proofs.«153560_j61091614819044_2_alg».proof.Proof.Gen.KernelIdeal
import proofs.«153560_j61091614819044_2_alg».proof.Proof.Gen.ReferenceIdeal
import proofs.«153560_j61091614819044_2_alg».proof.Proof.Gen.ReferenceIdeal.Run
import proofs.«153560_j61091614819044_2_alg».proof.Proof.Gen.ReferenceIdeal.Read
import proofs.«153560_j61091614819044_2_alg».proof.Proof.Gen.Pre_finite_inputs
import proofs.«153560_j61091614819044_2_alg».proof.Proof.BitsLaunch
import proofs.«153560_j61091614819044_2_alg».proof.Proof.KernelValue
import proofs.«153560_j61091614819044_2_alg».proof.Proof.RefValue

noncomputable section

namespace Cert.Proof

open Idealize.ShloMosaic Idealize.ShloMosaic.TcCoe Idealize.SL.Sem Cert.CellSpec

/-- The word-level kernel terminates, faults nowhere and leaves its arguments unchanged. -/
theorem frame_kernel : Cert.frame_Kernel := fun m ρ _ => Cert.Kernel.Region.frame m ρ

/-- So does the idealized kernel. -/
theorem frame_ideal : Cert.frame_KernelIdeal := fun m ρ _ => Cert.KernelIdeal.Region.frame m ρ

/-- So does the reference: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- No operation was rewritten: the idealization is the kernel's own text read at the ideal instance. -/
theorem preserves : Cert.preserves_Kernel_KernelIdeal := trivial

/-- From memories agreeing on the arguments both programs end with the specification's hidden state and cell state
    of those arguments. -/
theorem algebraic : Cert.algebraic_KernelIdeal_ReferenceIdeal := by
  intro m ρ m' ρ' _ hagree
  refine ⟨fun c => hiddenG (m ((c.tc : Thread Cert.KernelIdeal.nD Cert.KernelIdeal.τ).loc Cert.KernelIdeal.main_arg0) : (⟨2, ![4096, 1024]⟩ : Shape).Idx → EReal) (m ((c.tc : Thread Cert.KernelIdeal.nD Cert.KernelIdeal.τ).loc Cert.KernelIdeal.main_arg1) : (⟨2, ![4096, 2048]⟩ : Shape).Idx → EReal) (m ((c.tc : Thread Cert.KernelIdeal.nD Cert.KernelIdeal.τ).loc Cert.KernelIdeal.main_arg2) : (⟨2, ![4096, 2048]⟩ : Shape).Idx → EReal) (m ((c.tc : Thread Cert.KernelIdeal.nD Cert.KernelIdeal.τ).loc Cert.KernelIdeal.main_arg3) : (⟨2, ![3072, 10240]⟩ : Shape).Idx → EReal) (m ((c.tc : Thread Cert.KernelIdeal.nD Cert.KernelIdeal.τ).loc Cert.KernelIdeal.main_arg4) : (⟨1, ![10240]⟩ : Shape).Idx → EReal),
    fun c => cellG (m ((c.tc : Thread Cert.KernelIdeal.nD Cert.KernelIdeal.τ).loc Cert.KernelIdeal.main_arg0) : (⟨2, ![4096, 1024]⟩ : Shape).Idx → EReal) (m ((c.tc : Thread Cert.KernelIdeal.nD Cert.KernelIdeal.τ).loc Cert.KernelIdeal.main_arg1) : (⟨2, ![4096, 2048]⟩ : Shape).Idx → EReal) (m ((c.tc : Thread Cert.KernelIdeal.nD Cert.KernelIdeal.τ).loc Cert.KernelIdeal.main_arg2) : (⟨2, ![4096, 2048]⟩ : Shape).Idx → EReal) (m ((c.tc : Thread Cert.KernelIdeal.nD Cert.KernelIdeal.τ).loc Cert.KernelIdeal.main_arg3) : (⟨2, ![3072, 10240]⟩ : Shape).Idx → EReal) (m ((c.tc : Thread Cert.KernelIdeal.nD Cert.KernelIdeal.τ).loc Cert.KernelIdeal.main_arg4) : (⟨1, ![10240]⟩ : Shape).Idx → EReal),
    Cert.KernelIdeal.Region.run_value m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v45_eq, Cert.ReferenceIdeal.RefValue.hidden_eq,
      (hagree c).1, (hagree c).2.1, (hagree c).2.2.1, (hagree c).2.2.2.1, (hagree c).2.2.2.2]
  · rw [(h c).2.1, Cert.ReferenceIdeal.Read.val_main_v37_eq, Cert.ReferenceIdeal.RefValue.cell_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
